-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S64x32 : Shape := ⟨2, ![64, 32]⟩
abbrev S64x64 : Shape := ⟨2, ![64, 64]⟩
abbrev S16x64 : Shape := ⟨2, ![16, 64]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S64x64 .f32) (main_arg5 : FVec F S16x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  main_v28

def fn {F : FTy → Type} [FloatOps F] (main_arg0 : FVec F S1048576x32 .f32) (main_arg1 : FVec F S64x32 .f32) (main_arg2 : FVec F S64x64 .f32) (main_arg3 : FVec F S64x64 .f32) (main_arg4 : FVec F S64x64 .f32) (main_arg5 : FVec F S16x64 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S1048576x32 : Shape := ⟨2, ![1048576, 32]⟩
abbrev S64x32 : Shape := ⟨2, ![64, 32]⟩
abbrev S64x64 : Shape := ⟨2, ![64, 64]⟩
abbrev S16x64 : Shape := ⟨2, ![16, 64]⟩
abbrev S131072x256 : Shape := ⟨2, ![131072, 256]⟩
abbrev S32x64 : Shape := ⟨2, ![32, 64]⟩
abbrev S_ : Shape := ⟨0, ![]⟩
abbrev S256x512 : Shape := ⟨2, ![256, 512]⟩
abbrev S1 : Shape := ⟨1, ![1]⟩
abbrev S2 : Shape := ⟨1, ![2]⟩
abbrev S512x512 : Shape := ⟨2, ![512, 512]⟩
abbrev S64x16 : Shape := ⟨2, ![64, 16]⟩
abbrev S512x128 : Shape := ⟨2, ![512, 128]⟩
abbrev S131072x128 : Shape := ⟨2, ![131072, 128]⟩
abbrev S4096x256 : Shape := ⟨2, ![4096, 256]⟩
abbrev S4096x128 : Shape := ⟨2, ![4096, 128]⟩
abbrev S4096x512 : Shape := ⟨2, ![4096, 512]⟩
abbrev S1048576x16 : Shape := ⟨2, ![1048576, 16]⟩

abbrev nBuf : Space → Nat
  | .hbm => 269
  | .vmem => 9
  | .smem => 0
  | _ => 0

abbrev hbmTy0_0 (i : Nat) : BufTy := match i % 128 with
  | 0 => ⟨S1048576x32, .f32⟩
  | 1 => ⟨S64x32, .f32⟩
  | 2 => ⟨S64x64, .f32⟩
  | 3 => ⟨S64x64, .f32⟩
  | 4 => ⟨S64x64, .f32⟩
  | 5 => ⟨S16x64, .f32⟩
  | 6 => ⟨S131072x256, .f32⟩
  | 7 => ⟨S32x64, .f32⟩
  | 8 => ⟨S32x64, .bf16⟩
  | 9 => ⟨S_, .bf16⟩
  | 10 => ⟨S256x512, .bf16⟩
  | 11 => ⟨S_, .i32⟩
  | 12 => ⟨S1, .i32⟩
  | 13 => ⟨S_, .i32⟩
  | 14 => ⟨S1, .i32⟩
  | 15 => ⟨S2, .i32⟩
  | 16 => ⟨S256x512, .bf16⟩
  | 17 => ⟨S_, .i32⟩
  | 18 => ⟨S1, .i32⟩
  | 19 => ⟨S_, .i32⟩
  | 20 => ⟨S1, .i32⟩
  | 21 => ⟨S2, .i32⟩
  | 22 => ⟨S256x512, .bf16⟩
  | 23 => ⟨S_, .i32⟩
  | 24 => ⟨S1, .i32⟩
  | 25 => ⟨S_, .i32⟩
  | 26 => ⟨S1, .i32⟩
  | 27 => ⟨S2, .i32⟩
  | 28 => ⟨S256x512, .bf16⟩
  | 29 => ⟨S_, .i32⟩
  | 30 => ⟨S1, .i32⟩
  | 31 => ⟨S_, .i32⟩
  | 32 => ⟨S1, .i32⟩
  | 33 => ⟨S2, .i32⟩
  | 34 => ⟨S256x512, .bf16⟩
  | 35 => ⟨S_, .i32⟩
  | 36 => ⟨S1, .i32⟩
  | 37 => ⟨S_, .i32⟩
  | 38 => ⟨S1, .i32⟩
  | 39 => ⟨S2, .i32⟩
  | 40 => ⟨S256x512, .bf16⟩
  | 41 => ⟨S_, .i32⟩
  | 42 => ⟨S1, .i32⟩
  | 43 => ⟨S_, .i32⟩
  | 44 => ⟨S1, .i32⟩
  | 45 => ⟨S2, .i32⟩
  | 46 => ⟨S256x512, .bf16⟩
  | 47 => ⟨S_, .i32⟩
  | 48 => ⟨S1, .i32⟩
  | 49 => ⟨S_, .i32⟩
  | 50 => ⟨S1, .i32⟩
  | 51 => ⟨S2, .i32⟩
  | 52 => ⟨S256x512, .bf16⟩
  | 53 => ⟨S_, .i32⟩
  | 54 => ⟨S1, .i32⟩
  | 55 => ⟨S_, .i32⟩
  | 56 => ⟨S1, .i32⟩
  | 57 => ⟨S2, .i32⟩
  | 58 => ⟨S256x512, .bf16⟩
  | 59 => ⟨S64x64, .f32⟩
  | 60 => ⟨S64x64, .bf16⟩
  | 61 => ⟨S_, .bf16⟩
  | 62 => ⟨S512x512, .bf16⟩
  | 63 => ⟨S_, .i32⟩
  | 64 => ⟨S1, .i32⟩
  | 65 => ⟨S_, .i32⟩
  | 66 => ⟨S1, .i32⟩
  | 67 => ⟨S2, .i32⟩
  | 68 => ⟨S512x512, .bf16⟩
  | 69 => ⟨S_, .i32⟩
  | 70 => ⟨S1, .i32⟩
  | 71 => ⟨S_, .i32⟩
  | 72 => ⟨S1, .i32⟩
  | 73 => ⟨S2, .i32⟩
  | 74 => ⟨S512x512, .bf16⟩
  | 75 => ⟨S_, .i32⟩
  | 76 => ⟨S1, .i32⟩
  | 77 => ⟨S_, .i32⟩
  | 78 => ⟨S1, .i32⟩
  | 79 => ⟨S2, .i32⟩
  | 80 => ⟨S512x512, .bf16⟩
  | 81 => ⟨S_, .i32⟩
  | 82 => ⟨S1, .i32⟩
  | 83 => ⟨S_, .i32⟩
  | 84 => ⟨S1, .i32⟩
  | 85 => ⟨S2, .i32⟩
  | 86 => ⟨S512x512, .bf16⟩
  | 87 => ⟨S_, .i32⟩
  | 88 => ⟨S1, .i32⟩
  | 89 => ⟨S_, .i32⟩
  | 90 => ⟨S1, .i32⟩
  | 91 => ⟨S2, .i32⟩
  | 92 => ⟨S512x512, .bf16⟩
  | 93 => ⟨S_, .i32⟩
  | 94 => ⟨S1, .i32⟩
  | 95 => ⟨S_, .i32⟩
  | 96 => ⟨S1, .i32⟩
  | 97 => ⟨S2, .i32⟩
  | 98 => ⟨S512x512, .bf16⟩
  | 99 => ⟨S_, .i32⟩
  | 100 => ⟨S1, .i32⟩
  | 101 => ⟨S_, .i32⟩
  | 102 => ⟨S1, .i32⟩
  | 103 => ⟨S2, .i32⟩
  | 104 => ⟨S512x512, .bf16⟩
  | 105 => ⟨S_, .i32⟩
  | 106 => ⟨S1, .i32⟩
  | 107 => ⟨S_, .i32⟩
  | 108 => ⟨S1, .i32⟩
  | 109 => ⟨S2, .i32⟩
  | 110 => ⟨S512x512, .bf16⟩
  | 111 => ⟨S64x64, .f32⟩
  | 112 => ⟨S64x64, .bf16⟩
  | 113 => ⟨S_, .bf16⟩
  | 114 => ⟨S512x512, .bf16⟩
  | 115 => ⟨S_, .i32⟩
  | 116 => ⟨S1, .i32⟩
  | 117 => ⟨S_, .i32⟩
  | 118 => ⟨S1, .i32⟩
  | 119 => ⟨S2, .i32⟩
  | 120 => ⟨S512x512, .bf16⟩
  | 121 => ⟨S_, .i32⟩
  | 122 => ⟨S1, .i32⟩
  | 123 => ⟨S_, .i32⟩
  | 124 => ⟨S1, .i32⟩
  | 125 => ⟨S2, .i32⟩
  | 126 => ⟨S512x512, .bf16⟩
  | 127 => ⟨S_, .i32⟩
  | _ => ⟨S1048576x32, .f32⟩

abbrev hbmTy0_1 (i : Nat) : BufTy := match i % 128 with
  | 0 => ⟨S1, .i32⟩
  | 1 => ⟨S_, .i32⟩
  | 2 => ⟨S1, .i32⟩
  | 3 => ⟨S2, .i32⟩
  | 4 => ⟨S512x512, .bf16⟩
  | 5 => ⟨S_, .i32⟩
  | 6 => ⟨S1, .i32⟩
  | 7 => ⟨S_, .i32⟩
  | 8 => ⟨S1, .i32⟩
  | 9 => ⟨S2, .i32⟩
  | 10 => ⟨S512x512, .bf16⟩
  | 11 => ⟨S_, .i32⟩
  | 12 => ⟨S1, .i32⟩
  | 13 => ⟨S_, .i32⟩
  | 14 => ⟨S1, .i32⟩
  | 15 => ⟨S2, .i32⟩
  | 16 => ⟨S512x512, .bf16⟩
  | 17 => ⟨S_, .i32⟩
  | 18 => ⟨S1, .i32⟩
  | 19 => ⟨S_, .i32⟩
  | 20 => ⟨S1, .i32⟩
  | 21 => ⟨S2, .i32⟩
  | 22 => ⟨S512x512, .bf16⟩
  | 23 => ⟨S_, .i32⟩
  | 24 => ⟨S1, .i32⟩
  | 25 => ⟨S_, .i32⟩
  | 26 => ⟨S1, .i32⟩
  | 27 => ⟨S2, .i32⟩
  | 28 => ⟨S512x512, .bf16⟩
  | 29 => ⟨S_, .i32⟩
  | 30 => ⟨S1, .i32⟩
  | 31 => ⟨S_, .i32⟩
  | 32 => ⟨S1, .i32⟩
  | 33 => ⟨S2, .i32⟩
  | 34 => ⟨S512x512, .bf16⟩
  | 35 => ⟨S64x64, .f32⟩
  | 36 => ⟨S64x64, .bf16⟩
  | 37 => ⟨S_, .bf16⟩
  | 38 => ⟨S512x512, .bf16⟩
  | 39 => ⟨S_, .i32⟩
  | 40 => ⟨S1, .i32⟩
  | 41 => ⟨S_, .i32⟩
  | 42 => ⟨S1, .i32⟩
  | 43 => ⟨S2, .i32⟩
  | 44 => ⟨S512x512, .bf16⟩
  | 45 => ⟨S_, .i32⟩
  | 46 => ⟨S1, .i32⟩
  | 47 => ⟨S_, .i32⟩
  | 48 => ⟨S1, .i32⟩
  | 49 => ⟨S2, .i32⟩
  | 50 => ⟨S512x512, .bf16⟩
  | 51 => ⟨S_, .i32⟩
  | 52 => ⟨S1, .i32⟩
  | 53 => ⟨S_, .i32⟩
  | 54 => ⟨S1, .i32⟩
  | 55 => ⟨S2, .i32⟩
  | 56 => ⟨S512x512, .bf16⟩
  | 57 => ⟨S_, .i32⟩
  | 58 => ⟨S1, .i32⟩
  | 59 => ⟨S_, .i32⟩
  | 60 => ⟨S1, .i32⟩
  | 61 => ⟨S2, .i32⟩
  | 62 => ⟨S512x512, .bf16⟩
  | 63 => ⟨S_, .i32⟩
  | 64 => ⟨S1, .i32⟩
  | 65 => ⟨S_, .i32⟩
  | 66 => ⟨S1, .i32⟩
  | 67 => ⟨S2, .i32⟩
  | 68 => ⟨S512x512, .bf16⟩
  | 69 => ⟨S_, .i32⟩
  | 70 => ⟨S1, .i32⟩
  | 71 => ⟨S_, .i32⟩
  | 72 => ⟨S1, .i32⟩
  | 73 => ⟨S2, .i32⟩
  | 74 => ⟨S512x512, .bf16⟩
  | 75 => ⟨S_, .i32⟩
  | 76 => ⟨S1, .i32⟩
  | 77 => ⟨S_, .i32⟩
  | 78 => ⟨S1, .i32⟩
  | 79 => ⟨S2, .i32⟩
  | 80 => ⟨S512x512, .bf16⟩
  | 81 => ⟨S_, .i32⟩
  | 82 => ⟨S1, .i32⟩
  | 83 => ⟨S_, .i32⟩
  | 84 => ⟨S1, .i32⟩
  | 85 => ⟨S2, .i32⟩
  | 86 => ⟨S512x512, .bf16⟩
  | 87 => ⟨S64x16, .f32⟩
  | 88 => ⟨S64x16, .bf16⟩
  | 89 => ⟨S_, .bf16⟩
  | 90 => ⟨S512x128, .bf16⟩
  | 91 => ⟨S_, .i32⟩
  | 92 => ⟨S1, .i32⟩
  | 93 => ⟨S_, .i32⟩
  | 94 => ⟨S1, .i32⟩
  | 95 => ⟨S2, .i32⟩
  | 96 => ⟨S512x128, .bf16⟩
  | 97 => ⟨S_, .i32⟩
  | 98 => ⟨S1, .i32⟩
  | 99 => ⟨S_, .i32⟩
  | 100 => ⟨S1, .i32⟩
  | 101 => ⟨S2, .i32⟩
  | 102 => ⟨S512x128, .bf16⟩
  | 103 => ⟨S_, .i32⟩
  | 104 => ⟨S1, .i32⟩
  | 105 => ⟨S_, .i32⟩
  | 106 => ⟨S1, .i32⟩
  | 107 => ⟨S2, .i32⟩
  | 108 => ⟨S512x128, .bf16⟩
  | 109 => ⟨S_, .i32⟩
  | 110 => ⟨S1, .i32⟩
  | 111 => ⟨S_, .i32⟩
  | 112 => ⟨S1, .i32⟩
  | 113 => ⟨S2, .i32⟩
  | 114 => ⟨S512x128, .bf16⟩
  | 115 => ⟨S_, .i32⟩
  | 116 => ⟨S1, .i32⟩
  | 117 => ⟨S_, .i32⟩
  | 118 => ⟨S1, .i32⟩
  | 119 => ⟨S2, .i32⟩
  | 120 => ⟨S512x128, .bf16⟩
  | 121 => ⟨S_, .i32⟩
  | 122 => ⟨S1, .i32⟩
  | 123 => ⟨S_, .i32⟩
  | 124 => ⟨S1, .i32⟩
  | 125 => ⟨S2, .i32⟩
  | 126 => ⟨S512x128, .bf16⟩
  | 127 => ⟨S_, .i32⟩
  | _ => ⟨S1048576x32, .f32⟩

abbrev hbmTy0_2 (i : Nat) : BufTy := match i % 128 with
  | 0 => ⟨S1, .i32⟩
  | 1 => ⟨S_, .i32⟩
  | 2 => ⟨S1, .i32⟩
  | 3 => ⟨S2, .i32⟩
  | 4 => ⟨S512x128, .bf16⟩
  | 5 => ⟨S_, .i32⟩
  | 6 => ⟨S1, .i32⟩
  | 7 => ⟨S_, .i32⟩
  | 8 => ⟨S1, .i32⟩
  | 9 => ⟨S2, .i32⟩
  | 10 => ⟨S512x128, .bf16⟩
  | 11 => ⟨S131072x128, .f32⟩
  | 12 => ⟨S1048576x16, .f32⟩
  | _ => ⟨S1048576x32, .f32⟩

abbrev hbmTy (i : Nat) : BufTy := match i / 128 with
  | 0 => hbmTy0_0 i
  | 1 => hbmTy0_1 i
  | 2 => hbmTy0_2 i
  | _ => ⟨S1048576x32, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S256x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S4096x128, .f32⟩
  | .local _ .vmem, ⟨8, _⟩ => ⟨S4096x128, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_7 : Ref sig .tc := ⟨.hbm, 35, rfl⟩
abbrev main_v20 : Ref sig .tc := ⟨.hbm, 36, rfl⟩
abbrev main_c_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_9 : Ref sig .tc := ⟨.hbm, 41, rfl⟩
abbrev main_v24 : Ref sig .tc := ⟨.hbm, 42, rfl⟩
abbrev main_c_10 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_11 : Ref sig .tc := ⟨.hbm, 47, rfl⟩
abbrev main_v28 : Ref sig .tc := ⟨.hbm, 48, rfl⟩
abbrev main_c_12 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_13 : Ref sig .tc := ⟨.hbm, 53, rfl⟩
abbrev main_v32 : Ref sig .tc := ⟨.hbm, 54, rfl⟩
abbrev main_c_14 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_15 : Ref sig .tc := ⟨.hbm, 61, rfl⟩
abbrev main_v38 : Ref sig .tc := ⟨.hbm, 62, rfl⟩
abbrev main_c_16 : Ref sig .tc := ⟨.hbm, 63, rfl⟩
abbrev main_v39 : Ref sig .tc := ⟨.hbm, 64, rfl⟩
abbrev main_c_17 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_18 : Ref sig .tc := ⟨.hbm, 69, rfl⟩
abbrev main_v43 : Ref sig .tc := ⟨.hbm, 70, rfl⟩
abbrev main_c_19 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_20 : Ref sig .tc := ⟨.hbm, 75, rfl⟩
abbrev main_v47 : Ref sig .tc := ⟨.hbm, 76, rfl⟩
abbrev main_c_21 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_22 : Ref sig .tc := ⟨.hbm, 81, rfl⟩
abbrev main_v51 : Ref sig .tc := ⟨.hbm, 82, rfl⟩
abbrev main_c_23 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_24 : Ref sig .tc := ⟨.hbm, 87, rfl⟩
abbrev main_v55 : Ref sig .tc := ⟨.hbm, 88, rfl⟩
abbrev main_c_25 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_26 : Ref sig .tc := ⟨.hbm, 93, rfl⟩
abbrev main_v59 : Ref sig .tc := ⟨.hbm, 94, rfl⟩
abbrev main_c_27 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_28 : Ref sig .tc := ⟨.hbm, 99, rfl⟩
abbrev main_v63 : Ref sig .tc := ⟨.hbm, 100, rfl⟩
abbrev main_c_29 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_30 : Ref sig .tc := ⟨.hbm, 105, rfl⟩
abbrev main_v67 : Ref sig .tc := ⟨.hbm, 106, rfl⟩
abbrev main_c_31 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_32 : Ref sig .tc := ⟨.hbm, 113, rfl⟩
abbrev main_v73 : Ref sig .tc := ⟨.hbm, 114, rfl⟩
abbrev main_c_33 : Ref sig .tc := ⟨.hbm, 115, rfl⟩
abbrev main_v74 : Ref sig .tc := ⟨.hbm, 116, rfl⟩
abbrev main_c_34 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_35 : Ref sig .tc := ⟨.hbm, 121, rfl⟩
abbrev main_v78 : Ref sig .tc := ⟨.hbm, 122, rfl⟩
abbrev main_c_36 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_37 : Ref sig .tc := ⟨.hbm, 127, rfl⟩
abbrev main_v82 : Ref sig .tc := ⟨.hbm, 128, rfl⟩
abbrev main_c_38 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_39 : Ref sig .tc := ⟨.hbm, 133, rfl⟩
abbrev main_v86 : Ref sig .tc := ⟨.hbm, 134, rfl⟩
abbrev main_c_40 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_c_41 : Ref sig .tc := ⟨.hbm, 139, rfl⟩
abbrev main_v90 : Ref sig .tc := ⟨.hbm, 140, rfl⟩
abbrev main_c_42 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_c_43 : Ref sig .tc := ⟨.hbm, 145, rfl⟩
abbrev main_v94 : Ref sig .tc := ⟨.hbm, 146, rfl⟩
abbrev main_c_44 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_c_45 : Ref sig .tc := ⟨.hbm, 151, rfl⟩
abbrev main_v98 : Ref sig .tc := ⟨.hbm, 152, rfl⟩
abbrev main_c_46 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_c_47 : Ref sig .tc := ⟨.hbm, 157, rfl⟩
abbrev main_v102 : Ref sig .tc := ⟨.hbm, 158, rfl⟩
abbrev main_c_48 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_49 : Ref sig .tc := ⟨.hbm, 165, rfl⟩
abbrev main_v108 : Ref sig .tc := ⟨.hbm, 166, rfl⟩
abbrev main_c_50 : Ref sig .tc := ⟨.hbm, 167, rfl⟩
abbrev main_v109 : Ref sig .tc := ⟨.hbm, 168, rfl⟩
abbrev main_c_51 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_c_52 : Ref sig .tc := ⟨.hbm, 173, rfl⟩
abbrev main_v113 : Ref sig .tc := ⟨.hbm, 174, rfl⟩
abbrev main_c_53 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_c_54 : Ref sig .tc := ⟨.hbm, 179, rfl⟩
abbrev main_v117 : Ref sig .tc := ⟨.hbm, 180, rfl⟩
abbrev main_c_55 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_c_56 : Ref sig .tc := ⟨.hbm, 185, rfl⟩
abbrev main_v121 : Ref sig .tc := ⟨.hbm, 186, rfl⟩
abbrev main_c_57 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_c_58 : Ref sig .tc := ⟨.hbm, 191, rfl⟩
abbrev main_v125 : Ref sig .tc := ⟨.hbm, 192, rfl⟩
abbrev main_c_59 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_c_60 : Ref sig .tc := ⟨.hbm, 197, rfl⟩
abbrev main_v129 : Ref sig .tc := ⟨.hbm, 198, rfl⟩
abbrev main_c_61 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_c_62 : Ref sig .tc := ⟨.hbm, 203, rfl⟩
abbrev main_v133 : Ref sig .tc := ⟨.hbm, 204, rfl⟩
abbrev main_c_63 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_c_64 : Ref sig .tc := ⟨.hbm, 209, rfl⟩
abbrev main_v137 : Ref sig .tc := ⟨.hbm, 210, rfl⟩
abbrev main_c_65 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_cst_66 : Ref sig .tc := ⟨.hbm, 217, rfl⟩
abbrev main_v143 : Ref sig .tc := ⟨.hbm, 218, rfl⟩
abbrev main_c_67 : Ref sig .tc := ⟨.hbm, 219, rfl⟩
abbrev main_v144 : Ref sig .tc := ⟨.hbm, 220, rfl⟩
abbrev main_c_68 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_c_69 : Ref sig .tc := ⟨.hbm, 225, rfl⟩
abbrev main_v148 : Ref sig .tc := ⟨.hbm, 226, rfl⟩
abbrev main_c_70 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_c_71 : Ref sig .tc := ⟨.hbm, 231, rfl⟩
abbrev main_v152 : Ref sig .tc := ⟨.hbm, 232, rfl⟩
abbrev main_c_72 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_c_73 : Ref sig .tc := ⟨.hbm, 237, rfl⟩
abbrev main_v156 : Ref sig .tc := ⟨.hbm, 238, rfl⟩
abbrev main_c_74 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_c_75 : Ref sig .tc := ⟨.hbm, 243, rfl⟩
abbrev main_v160 : Ref sig .tc := ⟨.hbm, 244, rfl⟩
abbrev main_c_76 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_c_77 : Ref sig .tc := ⟨.hbm, 249, rfl⟩
abbrev main_v164 : Ref sig .tc := ⟨.hbm, 250, rfl⟩
abbrev main_c_78 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_c_79 : Ref sig .tc := ⟨.hbm, 255, rfl⟩
abbrev main_v168 : Ref sig .tc := ⟨.hbm, 256, rfl⟩
abbrev main_c_80 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_c_81 : Ref sig .tc := ⟨.hbm, 261, rfl⟩
abbrev main_v172 : Ref sig .tc := ⟨.hbm, 262, rfl⟩
abbrev main_c_82 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1048576x32_S131072x256 : S1048576x32.ShapeCasts S131072x256
  transposes_S64x32_S32x64_1_0 : S64x32.Transposes [1, 0] S32x64
  bitsLt_bf16_f32 : FTy.bits .bf16 < FTy.bits .f32
  bcast_S_S256x512 : S_.BroadcastsInDim S256x512 (![] : Fin 0 → Fin S256x512.rank)
  bcast_S_S1 : S_.BroadcastsInDim S1 (![] : Fin 0 → Fin S1.rank)
  concatenates_S1_S1_S2_d0 : Shape.Concatenates [S1, S1] S2 0
  transposes_S64x64_S64x64_1_0 : S64x64.Transposes [1, 0] S64x64
  bcast_S_S512x512 : S_.BroadcastsInDim S512x512 (![] : Fin 0 → Fin S512x512.rank)
  transposes_S16x64_S64x16_1_0 : S16x64.Transposes [1, 0] S64x16
  bcast_S_S512x128 : S_.BroadcastsInDim S512x128 (![] : Fin 0 → Fin S512x128.rank)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4096x128_S4096x128_0_0 : ∀ a, (![0, 0] : Fin 2 → Nat) a + S4096x128.size a ≤ S4096x128.size a
  h_S4096x128 : 0 < S4096x128.numel
  shapeCasts_S131072x128_S1048576x16 : S131072x128.ShapeCasts S1048576x16
  scatter_S256x512_S2_S32x64_01_n_01_0_wf : ScatterDims.WF S256x512 S2 S32x64 [0, 1] [] [0, 1] 0
  scatter_S512x512_S2_S64x64_01_n_01_0_wf : ScatterDims.WF S512x512 S2 S64x64 [0, 1] [] [0, 1] 0
  scatter_S512x128_S2_S64x16_01_n_01_0_wf : ScatterDims.WF S512x128 S2 S64x16 [0, 1] [] [0, 1] 0
  dot_S4096x256_S256x512_S4096x512_1_0_0_1_n_n_wf : DotDims.WF S4096x256 S256x512 S4096x512 [1] [0] [0] [1] [] []
  dot_S4096x512_S512x512_S4096x512_1_0_0_1_n_n_wf : DotDims.WF S4096x512 S512x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S131072x128.size a
  hwx0_6 : ∀ i : grid0.Coords, EltTy.bits .f32 = 32 ∨ (Rect.block (s := S131072x128) S4096x128.size (cc0_transform_6 i) (hinb0_6 i)).WholeWords (EltTy.packing .f32)

variable [Facts₀]

def scatter_S256x512_S2_S32x64_01_n_01_0 : ScatterDims S256x512 S2 S32x64 where
  updateWindowDims := [0, 1]
  insertedWindowDims := []
  scatterDimsToOperandDims := [0, 1]
  indexVectorDim := 0
  wf := scatter_S256x512_S2_S32x64_01_n_01_0_wf
def scatter_S512x512_S2_S64x64_01_n_01_0 : ScatterDims S512x512 S2 S64x64 where
  updateWindowDims := [0, 1]
  insertedWindowDims := []
  scatterDimsToOperandDims := [0, 1]
  indexVectorDim := 0
  wf := scatter_S512x512_S2_S64x64_01_n_01_0_wf
def scatter_S512x128_S2_S64x16_01_n_01_0 : ScatterDims S512x128 S2 S64x16 where
  updateWindowDims := [0, 1]
  insertedWindowDims := []
  scatterDimsToOperandDims := [0, 1]
  indexVectorDim := 0
  wf := scatter_S512x128_S2_S64x16_01_n_01_0_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v105) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v140) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v175) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v176) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S64x32 : Shape := ⟨2, ![64, 32]⟩
abbrev S64x64 : Shape := ⟨2, ![64, 64]⟩
abbrev S16x64 : Shape := ⟨2, ![16, 64]⟩
abbrev S32x64 : Shape := ⟨2, ![32, 64]⟩
abbrev S1048576x64 : Shape := ⟨2, ![1048576, 64]⟩
abbrev S_ : Shape := ⟨0, ![]⟩
abbrev S64x16 : Shape := ⟨2, ![64, 16]⟩
abbrev S1048576x16 : Shape := ⟨2, ![1048576, 16]⟩

abbrev nBuf : Space → Nat
  | .hbm => 28
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S64x32, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S16x64, .f32⟩
  | .hbm, ⟨6, _⟩ => ⟨S32x64, .f32⟩
  | .hbm, ⟨7, _⟩ => ⟨S1048576x64, .f32⟩
  | .hbm, ⟨8, _⟩ => ⟨S_, .f32⟩
  | .hbm, ⟨9, _⟩ => ⟨S1048576x64, .f32⟩
  | .hbm, ⟨10, _⟩ => ⟨S1048576x64, .f32⟩
  | .hbm, ⟨11, _⟩ => ⟨S64x64, .f32⟩
  | .hbm, ⟨12, _⟩ => ⟨S1048576x64, .f32⟩
  | .hbm, ⟨13, _⟩ => ⟨S_, .f32⟩
  | .hbm, ⟨14, _⟩ => ⟨S1048576x64, .f32⟩
  | .hbm, ⟨15, _⟩ => ⟨S1048576x64, .f32⟩
  | .hbm, ⟨16, _⟩ => ⟨S64x64, .f32⟩
  | .hbm, ⟨17, _⟩ => ⟨S1048576x64, .f32⟩
  | .hbm, ⟨18, _⟩ => ⟨S_, .f32⟩
  | .hbm, ⟨19, _⟩ => ⟨S1048576x64, .f32⟩
  | .hbm, ⟨20, _⟩ => ⟨S1048576x64, .f32⟩
  | .hbm, ⟨21, _⟩ => ⟨S64x64, .f32⟩
  | .hbm, ⟨22, _⟩ => ⟨S1048576x64, .f32⟩
  | .hbm, ⟨23, _⟩ => ⟨S_, .f32⟩
  | .hbm, ⟨24, _⟩ => ⟨S1048576x64, .f32⟩
  | .hbm, ⟨25, _⟩ => ⟨S1048576x64, .f32⟩
  | .hbm, ⟨26, _⟩ => ⟨S64x16, .f32⟩
  | .hbm, ⟨27, _⟩ => ⟨S1048576x16, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_cst : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call2_cst : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call3_cst : Ref sig .tc := ⟨.hbm, 23, rfl⟩
abbrev main_call3_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]

class Facts₀ : Prop where
  transposes_S64x32_S32x64_1_0 : S64x32.Transposes [1, 0] S32x64
  bcast_S_S1048576x64 : S_.BroadcastsInDim S1048576x64 (![] : Fin 0 → Fin S1048576x64.rank)
  transposes_S64x64_S64x64_1_0 : S64x64.Transposes [1, 0] S64x64
  transposes_S16x64_S64x16_1_0 : S16x64.Transposes [1, 0] S64x16
  dot_S1048576x32_S32x64_S1048576x64_1_0_0_1_n_n_wf : DotDims.WF S1048576x32 S32x64 S1048576x64 [1] [0] [0] [1] [] []
  dot_S1048576x64_S64x64_S1048576x64_1_0_0_1_n_n_wf : DotDims.WF S1048576x64 S64x64 S1048576x64 [1] [0] [0] [1] [] []
  dot_S1048576x64_S64x16_S1048576x16_1_0_0_1_n_n_wf : DotDims.WF S1048576x64 S64x16 S1048576x16 [1] [0] [0] [1] [] []

variable [Facts₀]

def dot_S1048576x32_S32x64_S1048576x64_1_0_0_1_n_n : DotDims S1048576x32 S32x64 S1048576x64 where
  lhsContracting := [1]
  rhsContracting := [0]
  lhsNonContracting := [0]
  rhsNonContracting := [1]
  lhsBatch := []
  rhsBatch := []
  wf := dot_S1048576x32_S32x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf

class Facts : Prop extends Facts₀ where

variable [Facts]
-- ==== Proof.Spec.lean ====
/-
  The two arrangements of one computation, as functions on the extended reals.

  A bias-free multilayer perceptron applied to every sample: four hidden layers, each a linear map followed by
  max(·, 0), and a linear output layer. `mlp` is the per-sample form: sample n of layer l+1 at unit c is
  max(Σ_k h_l(n, k) · W_l(c, k), 0). `packedMlp` is the same chain written with plain matrix products
  (rows by columns): it is what one obtains after laying eight consecutive samples side by side in one row and
  replacing every weight matrix by the block-diagonal matrix holding eight copies of its transpose.
-/
import Idealize.ShloMosaic.Lib.ValueIdx
import Idealize.ShloMosaic.PureOps.Ideal.Laws

noncomputable section

namespace Cert.Mlp

open Idealize.ShloMosaic Idealize.ShloMosaic.ValueIdx
open scoped BigOperators

/-- max(·, 0), entry by entry. -/
def relu {s : Shape} (h : s.Idx → EReal) : s.Idx → EReal := fun i => max (h i) 0

/-- A linear layer with the weight stored as [units out, units in]: entry (n, c) is Σ_k h(n, k) · W(c, k). -/
def lin {N K C : ℕ} (h : (⟨2, ![N, K]⟩ : Shape).Idx → EReal) (W : (⟨2, ![C, K]⟩ : Shape).Idx → EReal) :
    (⟨2, ![N, C]⟩ : Shape).Idx → EReal :=
  fun i => ∑ k : Fin K, h (ix2 (i 0) k) * W (ix2 (i 1) k)

/-- A rows-by-columns matrix product: entry (p, q) is Σ_k l(p, k) · r(k, q). -/
def mm {A K B : ℕ} (l : (⟨2, ![A, K]⟩ : Shape).Idx → EReal) (r : (⟨2, ![K, B]⟩ : Shape).Idx → EReal) :
    (⟨2, ![A, B]⟩ : Shape).Idx → EReal :=
  fun i => ∑ k : Fin K, l (ix2 (i 0) k) * r (ix2 k (i 1))

/-- The perceptron, sample by sample. -/
def mlp {N K H O : ℕ} (x : (⟨2, ![N, K]⟩ : Shape).Idx → EReal) (W0 : (⟨2, ![H, K]⟩ : Shape).Idx → EReal)
    (W1 W2 W3 : (⟨2, ![H, H]⟩ : Shape).Idx → EReal) (Wout : (⟨2, ![O, H]⟩ : Shape).Idx → EReal) :
    (⟨2, ![N, O]⟩ : Shape).Idx → EReal :=
  lin (relu (lin (relu (lin (relu (lin (relu (lin x W0)) W1)) W2)) W3)) Wout

/-- The same chain over plain matrix products. -/
def packedMlp {A K H O : ℕ} (X : (⟨2, ![A, K]⟩ : Shape).Idx → EReal) (B0 : (⟨2, ![K, H]⟩ : Shape).Idx → EReal)
    (B1 B2 B3 : (⟨2, ![H, H]⟩ : Shape).Idx → EReal) (Bout : (⟨2, ![H, O]⟩ : Shape).Idx → EReal) :
    (⟨2, ![A, O]⟩ : Shape).Idx → EReal :=
  mm (relu (mm (relu (mm (relu (mm (relu (mm X B0)) B1)) B2)) B3)) Bout

theorem relu_apply {s : Shape} (h : s.Idx → EReal) (i : s.Idx) : relu h i = max (h i) 0 := rfl

theorem lin_apply {N K C : ℕ} (h : (⟨2, ![N, K]⟩ : Shape).Idx → EReal) (W : (⟨2, ![C, K]⟩ : Shape).Idx → EReal)
    (n : Fin N) (c : Fin C) : lin h W (ix2 n c) = ∑ k : Fin K, h (ix2 n k) * W (ix2 c k) := rfl

theorem mm_apply {A K B : ℕ} (l : (⟨2, ![A, K]⟩ : Shape).Idx → EReal) (r : (⟨2, ![K, B]⟩ : Shape).Idx → EReal)
    (p : Fin A) (q : Fin B) : mm l r (ix2 p q) = ∑ k : Fin K, l (ix2 p k) * r (ix2 k q) := rfl

/-- A row of a product depends on the same row of the left factor only. -/
theorem mm_row {A A' K B : ℕ} (l : (⟨2, ![A, K]⟩ : Shape).Idx → EReal) (l' : (⟨2, ![A', K]⟩ : Shape).Idx → EReal)
    (r : (⟨2, ![K, B]⟩ : Shape).Idx → EReal) (p : Fin A) (p' : Fin A')
    (h : ∀ k, l (ix2 p k) = l' (ix2 p' k)) (q : Fin B) : mm l r (ix2 p q) = mm l' r (ix2 p' q) := by
  rw [mm_apply, mm_apply]
  exact Finset.sum_congr rfl fun k _ => by rw [h k]

/-- A row of the packed chain depends on the same row of its input only. -/
theorem packedMlp_row {A A' K H O : ℕ} (X : (⟨2, ![A, K]⟩ : Shape).Idx → EReal) (X' : (⟨2, ![A', K]⟩ : Shape).Idx → EReal)
    (B0 : (⟨2, ![K, H]⟩ : Shape).Idx → EReal) (B1 B2 B3 : (⟨2, ![H, H]⟩ : Shape).Idx → EReal)
    (Bout : (⟨2, ![H, O]⟩ : Shape).Idx → EReal) (p : Fin A) (p' : Fin A')
    (h : ∀ k, X (ix2 p k) = X' (ix2 p' k)) (q : Fin O) :
    packedMlp X B0 B1 B2 B3 Bout (ix2 p q) = packedMlp X' B0 B1 B2 B3 Bout (ix2 p' q) := by
  unfold packedMlp
  refine mm_row _ _ _ p p' (fun k => ?_) q
  rw [relu_apply, relu_apply]; congr 1
  refine mm_row _ _ _ p p' (fun k => ?_) k
  rw [relu_apply, relu_apply]; congr 1
  refine mm_row _ _ _ p p' (fun k => ?_) k
  rw [relu_apply, relu_apply]; congr 1
  refine mm_row _ _ _ p p' (fun k => ?_) k
  rw [relu_apply, relu_apply]; congr 1
  exact mm_row _ _ _ p p' h k

end Cert.Mlp

end
-- ==== Proof.Bridge.lean ====
/-
  Packing samples side by side against block-diagonal weights.

  Lay J consecutive samples of an [N, K] array side by side: row r of the packed array holds samples J·r, …,
  J·r + J − 1, sample J·r + j in columns j·K … j·K + K − 1. Let B be the block-diagonal matrix whose diagonal
  blocks are J copies of the transpose of a weight W : [C, K] and whose other entries are zero. Then the plain
  product of the packed array with B is the packed form of the per-sample layer Σ_k h(n, k) · W(c, k): in the
  sum over a packed row, split the column into (block, offset); every block but the one of the output column
  meets a zero entry of B, and zero times any extended real is zero, so only the output column's own block is
  left — and that block is the per-sample sum. Taking max(·, 0) entry by entry keeps the packed form, so the
  whole chain of products is the packed form of the per-sample perceptron. No finiteness is needed: the
  argument only uses that a sum may be regrouped and that 0 annihilates.
-/
import proofs.«121121_j90924457656974_2_alg».proof.Proof.Spec
import Mathlib.Logic.Equiv.Fin.Basic
import Mathlib.Algebra.BigOperators.Fin

noncomputable section

namespace Cert.Mlp

open Idealize.ShloMosaic Idealize.ShloMosaic.ValueIdx
open scoped BigOperators

/-- `Hp` holds `J` consecutive samples of `h` side by side in each row: entry (r, kk) of `Hp` is entry
    (J·r + kk / K, kk % K) of `h`. Stated on the coordinates' values, so that no bound has to be carried. -/
def Packed (J : ℕ) {N K R KK : ℕ} (h : (⟨2, ![N, K]⟩ : Shape).Idx → EReal) (Hp : (⟨2, ![R, KK]⟩ : Shape).Idx → EReal) : Prop :=
  ∀ (r : Fin R) (kk : Fin KK) (n : Fin N) (k : Fin K), n.val = J * r.val + kk.val / K → k.val = kk.val % K →
    Hp (ix2 r kk) = h (ix2 n k)

/-- `B` holds the transpose of `W` on each diagonal block and zero elsewhere: entry (kk, qq) is W(qq % C, kk % K)
    when kk / K = qq / C, and 0 otherwise. -/
def BlockDiag {K C KK CC : ℕ} (W : (⟨2, ![C, K]⟩ : Shape).Idx → EReal) (B : (⟨2, ![KK, CC]⟩ : Shape).Idx → EReal) : Prop :=
  (∀ (kk : Fin KK) (qq : Fin CC) (c : Fin C) (k : Fin K), kk.val / K = qq.val / C → c.val = qq.val % C → k.val = kk.val % K →
    B (ix2 kk qq) = W (ix2 c k)) ∧
  (∀ (kk : Fin KK) (qq : Fin CC), kk.val / K ≠ qq.val / C → B (ix2 kk qq) = 0)

/-- The packed form from its entrywise description. -/
theorem Packed.of_apply {J N K R KK : ℕ} (hK : 0 < K) {h : (⟨2, ![N, K]⟩ : Shape).Idx → EReal}
    {Hp : (⟨2, ![R, KK]⟩ : Shape).Idx → EReal} (hb : ∀ (r : Fin R) (kk : Fin KK), J * r.val + kk.val / K < N)
    (e : ∀ (r : Fin R) (kk : Fin KK), Hp (ix2 r kk) = h (ix2 ⟨J * r.val + kk.val / K, hb r kk⟩ ⟨kk.val % K, Nat.mod_lt _ hK⟩)) :
    Packed J h Hp := fun r kk n k hn hk => by
  rw [e r kk]
  have e1 : (⟨J * r.val + kk.val / K, hb r kk⟩ : Fin N) = n := Fin.ext hn.symm
  have e2 : (⟨kk.val % K, Nat.mod_lt _ hK⟩ : Fin K) = k := Fin.ext hk.symm
  rw [e1, e2]

/-- The block-diagonal form from its entrywise description. -/
theorem BlockDiag.of_apply {K C KK CC : ℕ} (hK : 0 < K) (hC : 0 < C) {W : (⟨2, ![C, K]⟩ : Shape).Idx → EReal}
    {B : (⟨2, ![KK, CC]⟩ : Shape).Idx → EReal}
    (e : ∀ (kk : Fin KK) (qq : Fin CC), B (ix2 kk qq)
      = if kk.val / K = qq.val / C then W (ix2 ⟨qq.val % C, Nat.mod_lt _ hC⟩ ⟨kk.val % K, Nat.mod_lt _ hK⟩) else 0) :
    BlockDiag W B :=
  ⟨fun kk qq c k hd hc hk => by
    rw [e kk qq, if_pos hd]
    have e1 : (⟨qq.val % C, Nat.mod_lt _ hC⟩ : Fin C) = c := Fin.ext hc.symm
    have e2 : (⟨kk.val % K, Nat.mod_lt _ hK⟩ : Fin K) = k := Fin.ext hk.symm
    rw [e1, e2],
   fun kk qq hd => by rw [e kk qq, if_neg hd]⟩

/-- max(·, 0) keeps the packed form. -/
theorem Packed.relu {J N K R KK : ℕ} {h : (⟨2, ![N, K]⟩ : Shape).Idx → EReal} {Hp : (⟨2, ![R, KK]⟩ : Shape).Idx → EReal}
    (hp : Packed J h Hp) : Packed J (relu h) (relu Hp) := fun r kk n k hn hk => by
  rw [relu_apply, relu_apply, hp r kk n k hn hk]

/-- The product of a packed array with a block-diagonal matrix is the packed per-sample layer. -/
theorem Packed.mm {J N K C R KK CC : ℕ} (hK : 0 < K) (hKK : KK = J * K) (hCC : CC = J * C)
    {h : (⟨2, ![N, K]⟩ : Shape).Idx → EReal} {W : (⟨2, ![C, K]⟩ : Shape).Idx → EReal}
    {Hp : (⟨2, ![R, KK]⟩ : Shape).Idx → EReal} {B : (⟨2, ![KK, CC]⟩ : Shape).Idx → EReal}
    (hp : Packed J h Hp) (hb : BlockDiag W B) : Packed J (lin h W) (Cert.Mlp.mm Hp B) := by
  subst hKK hCC
  intro r qq n c hn hc
  rw [mm_apply, lin_apply, ← Equiv.sum_comp finProdFinEquiv, Fintype.sum_prod_type]
  have hj : qq.val / C < J := Nat.div_lt_of_lt_mul (lt_of_lt_of_eq qq.isLt (Nat.mul_comm J C))
  have hv : ∀ (j : Fin J) (k : Fin K), (finProdFinEquiv (j, k)).val = k.val + K * j.val := fun _ _ => rfl
  have hd : ∀ (j : Fin J) (k : Fin K), (k.val + K * j.val) / K = j.val := fun j k => by
    rw [Nat.add_mul_div_left _ _ hK, Nat.div_eq_of_lt k.isLt, Nat.zero_add]
  have hm : ∀ (j : Fin J) (k : Fin K), (k.val + K * j.val) % K = k.val := fun j k => by
    rw [Nat.add_mul_mod_self_left, Nat.mod_eq_of_lt k.isLt]
  rw [Finset.sum_eq_single (⟨qq.val / C, hj⟩ : Fin J)]
  · refine Finset.sum_congr rfl fun k _ => ?_
    rw [hp r _ n k (by rw [hv, hd]; exact hn) (by rw [hv, hm]),
      hb.1 _ qq c k (by rw [hv, hd]) hc (by rw [hv, hm])]
  · intro j _ hne
    refine Finset.sum_eq_zero fun k _ => ?_
    rw [hb.2 _ qq (by rw [hv, hd]; exact fun e => hne (Fin.ext e)), mul_zero]
  · intro hq
    exact absurd (Finset.mem_univ _) hq

/-- The packed chain over block-diagonal weights is the packed form of the per-sample perceptron. -/
theorem packed_mlp {J N K H O R KK HH OO : ℕ} (hK : 0 < K) (hH : 0 < H)
    (hKK : KK = J * K) (hHH : HH = J * H) (hOO : OO = J * O)
    {x : (⟨2, ![N, K]⟩ : Shape).Idx → EReal} {W0 : (⟨2, ![H, K]⟩ : Shape).Idx → EReal}
    {W1 W2 W3 : (⟨2, ![H, H]⟩ : Shape).Idx → EReal} {Wout : (⟨2, ![O, H]⟩ : Shape).Idx → EReal}
    {Xp : (⟨2, ![R, KK]⟩ : Shape).Idx → EReal} {B0 : (⟨2, ![KK, HH]⟩ : Shape).Idx → EReal}
    {B1 B2 B3 : (⟨2, ![HH, HH]⟩ : Shape).Idx → EReal} {Bout : (⟨2, ![HH, OO]⟩ : Shape).Idx → EReal}
    (hX : Packed J x Xp) (h0 : BlockDiag W0 B0) (h1 : BlockDiag W1 B1) (h2 : BlockDiag W2 B2) (h3 : BlockDiag W3 B3)
    (hout : BlockDiag Wout Bout) :
    Packed J (mlp x W0 W1 W2 W3 Wout) (packedMlp Xp B0 B1 B2 B3 Bout) := by
  unfold mlp packedMlp
  exact Packed.mm hH hHH hOO (Packed.relu (Packed.mm hH hHH hHH (Packed.relu (Packed.mm hH hHH hHH
    (Packed.relu (Packed.mm hH hHH hHH (Packed.relu (Packed.mm hK hKK hHH hX h0)) h1)) h2)) h3)) hout

end Cert.Mlp

end
-- ==== Proof.Reference.lean ====
/-
  The reference's result is the per-sample perceptron.

  The reference applies, four times, a product with a transposed weight matrix followed by max(·, 0), and then
  one more such product. Read entry by entry over the extended reals, a product with the transpose of a weight
  stored as [units out, units in] is Σ_k h(n, k) · W(c, k), and the maximum with a broadcast zero is max(·, 0):
  the result is `mlp` of the argument arrays.
-/
import proofs.«121121_j90924457656974_2_alg».proof.Proof.Gen.ReferenceIdeal.Read
import proofs.«121121_j90924457656974_2_alg».proof.Proof.Spec

noncomputable section

namespace Cert.ReferenceIdeal.RefValue

open Idealize.ShloMosaic Idealize.ShloMosaic.ValueIdx Cert.ReferenceIdeal Cert.ReferenceIdeal.Read Cert.Mlp
open scoped BigOperators

/-- The first hidden layer. -/
theorem hidden1 (x0 : S1048576x32.Idx → EReal) (x1 : S64x32.Idx → EReal) :
    val_main_v2 (F := Ideal) x0 x1 = relu (lin x0 x1) := by
  funext i
  obtain ⟨n, c, rfl⟩ : ∃ (n : Fin 1048576) (c : Fin 64), i = ix2 n c := ⟨i 0, i 1, eq_ix2 i⟩
  rw [val_main_v2_apply, val_main_v1_apply, val_main_call0_v0_apply, val_main_call0_cst_apply, relu_apply, lin_apply]
  rw [Ideal.maximumf_def, Ideal.ofBits_def, Ideal.ofBits_zero_f32]
  congr 1
  refine Finset.sum_congr rfl fun k _ => ?_
  rw [val_main_v0_apply]
  have el : lidx_main_v1 (ix2 n c) k = ix2 n k := funext fun a => Fin.ext (by match a with | ⟨0, _⟩ => rfl | ⟨1, _⟩ => rfl)
  have er : idx_main_v0 (ridx_main_v1 (ix2 n c) k) = ix2 c k := funext fun a => Fin.ext (by match a with | ⟨0, _⟩ => rfl | ⟨1, _⟩ => rfl)
  rw [el, er]

/-- The second hidden layer, from the first. -/
theorem hidden2 (x0 : S1048576x32.Idx → EReal) (x1 : S64x32.Idx → EReal) (x2 : S64x64.Idx → EReal) :
    val_main_v5 (F := Ideal) x0 x1 x2 = relu (lin (val_main_v2 (F := Ideal) x0 x1) x2) := by
  funext i
  obtain ⟨n, c, rfl⟩ : ∃ (n : Fin 1048576) (c : Fin 64), i = ix2 n c := ⟨i 0, i 1, eq_ix2 i⟩
  rw [val_main_v5_apply, val_main_v4_apply]
  generalize val_main_v2 (F := Ideal) x0 x1 = y
  rw [val_main_call1_v0_apply, val_main_call1_cst_apply, relu_apply, lin_apply]
  rw [Ideal.maximumf_def, Ideal.ofBits_def, Ideal.ofBits_zero_f32]
  congr 1
  refine Finset.sum_congr rfl fun k _ => ?_
  rw [val_main_v3_apply]
  have el : lidx_main_v4 (ix2 n c) k = ix2 n k := funext fun a => Fin.ext (by match a with | ⟨0, _⟩ => rfl | ⟨1, _⟩ => rfl)
  have er : idx_main_v3 (ridx_main_v4 (ix2 n c) k) = ix2 c k := funext fun a => Fin.ext (by match a with | ⟨0, _⟩ => rfl | ⟨1, _⟩ => rfl)
  rw [el, er]

/-- The third hidden layer, from the second. -/
theorem hidden3 (x0 : S1048576x32.Idx → EReal) (x1 : S64x32.Idx → EReal) (x2 x3 : S64x64.Idx → EReal) :
    val_main_v8 (F := Ideal) x0 x1 x2 x3 = relu (lin (val_main_v5 (F := Ideal) x0 x1 x2) x3) := by
  funext i
  obtain ⟨n, c, rfl⟩ : ∃ (n : Fin 1048576) (c : Fin 64), i = ix2 n c := ⟨i 0, i 1, eq_ix2 i⟩
  rw [val_main_v8_apply, val_main_v7_apply]
  generalize val_main_v5 (F := Ideal) x0 x1 x2 = y
  rw [val_main_call2_v0_apply, val_main_call2_cst_apply, relu_apply, lin_apply]
  rw [Ideal.maximumf_def, Ideal.ofBits_def, Ideal.ofBits_zero_f32]
  congr 1
  refine Finset.sum_congr rfl fun k _ => ?_
  rw [val_main_v6_apply]
  have el : lidx_main_v7 (ix2 n c) k = ix2 n k := funext fun a => Fin.ext (by match a with | ⟨0, _⟩ => rfl | ⟨1, _⟩ => rfl)
  have er : idx_main_v6 (ridx_main_v7 (ix2 n c) k) = ix2 c k := funext fun a => Fin.ext (by match a with | ⟨0, _⟩ => rfl | ⟨1, _⟩ => rfl)
  rw [el, er]

/-- The fourth hidden layer, from the third. -/
theorem hidden4 (x0 : S1048576x32.Idx → EReal) (x1 : S64x32.Idx → EReal) (x2 x3 x4 : S64x64.Idx → EReal) :
    val_main_v11 (F := Ideal) x0 x1 x2 x3 x4 = relu (lin (val_main_v8 (F := Ideal) x0 x1 x2 x3) x4) := by
  funext i
  obtain ⟨n, c, rfl⟩ : ∃ (n : Fin 1048576) (c : Fin 64), i = ix2 n c := ⟨i 0, i 1, eq_ix2 i⟩
  rw [val_main_v11_apply, val_main_v10_apply]
  generalize val_main_v8 (F := Ideal) x0 x1 x2 x3 = y
  rw [val_main_call3_v0_apply, val_main_call3_cst_apply, relu_apply, lin_apply]
  rw [Ideal.maximumf_def, Ideal.ofBits_def, Ideal.ofBits_zero_f32]
  congr 1
  refine Finset.sum_congr rfl fun k _ => ?_
  rw [val_main_v9_apply]
  have el : lidx_main_v10 (ix2 n c) k = ix2 n k := funext fun a => Fin.ext (by match a with | ⟨0, _⟩ => rfl | ⟨1, _⟩ => rfl)
  have er : idx_main_v9 (ridx_main_v10 (ix2 n c) k) = ix2 c k := funext fun a => Fin.ext (by match a with | ⟨0, _⟩ => rfl | ⟨1, _⟩ => rfl)
  rw [el, er]

/-- The output layer, from the fourth hidden layer. -/
theorem output (x0 : S1048576x32.Idx → EReal) (x1 : S64x32.Idx → EReal) (x2 x3 x4 : S64x64.Idx → EReal)
    (x5 : S16x64.Idx → EReal) :
    val_main_v13 (F := Ideal) x0 x1 x2 x3 x4 x5 = lin (val_main_v11 (F := Ideal) x0 x1 x2 x3 x4) x5 := by
  funext i
  obtain ⟨n, c, rfl⟩ : ∃ (n : Fin 1048576) (c : Fin 16), i = ix2 n c := ⟨i 0, i 1, eq_ix2 i⟩
  rw [val_main_v13_apply]
  generalize val_main_v11 (F := Ideal) x0 x1 x2 x3 x4 = y
  rw [lin_apply]
  refine Finset.sum_congr rfl fun k _ => ?_
  rw [val_main_v12_apply]
  have el : lidx_main_v13 (ix2 n c) k = ix2 n k := funext fun a => Fin.ext (by match a with | ⟨0, _⟩ => rfl | ⟨1, _⟩ => rfl)
  have er : idx_main_v12 (ridx_main_v13 (ix2 n c) k) = ix2 c k := funext fun a => Fin.ext (by match a with | ⟨0, _⟩ => rfl | ⟨1, _⟩ => rfl)
  rw [el, er]

/-- The reference's result, as a function of its argument arrays, is the per-sample perceptron. -/
theorem result_eq (x0 : S1048576x32.Idx → EReal) (x1 : S64x32.Idx → EReal) (x2 x3 x4 : S64x64.Idx → EReal)
    (x5 : S16x64.Idx → EReal) :
    val_main_v13 (F := Ideal) x0 x1 x2 x3 x4 x5 = mlp x0 x1 x2 x3 x4 x5 := by
  rw [output, hidden4, hidden3, hidden2, hidden1]
  rfl

end Cert.ReferenceIdeal.RefValue

end
-- ==== Proof.LibHostRead.lean ====
/-
  Reading the contents of a buffer after a long straight line of host operations.

  `StableHlo.after ops V` is what the buffers hold once the operations `ops` have run in order from
  contents `V`. When the line is in single-assignment form — operation number `k` writes exactly the
  reference `W[k]`, and nothing an operation reads or writes is written again later — the FINAL contents
  satisfy each operation's own equation: the result buffer of operation `k` holds the operation's function
  of the final contents of its operands. These are the lemmas `after_nullary_fix`, `after_unary_fix`,
  `after_binary_fix`, `after_ternary_fix`, `after_reshape_fix` below, one per builder.

  Their side conditions are made to be cheap on a literal list of a couple of hundred operations:
  * `Aligned ops W`, proved ONCE per line: the operations and the list of the references they write, paired
    in order (on literal lists it unfolds to a conjunction of equations each closed by `rfl`);
  * `ops[k]? = some (unary x y f hx hy)` for the literal position `k`, closed by `rfl`;
  * that the operands and the result are not among the references written after position `k`,
    `x ∉ W.drop (k + 1)`, and that an operand is not the result, `x ≠ y`: decided over references.
  Nothing is unfolded along the line: the cost of one reading does not grow with the operations before it.
-/
import Idealize.ShloMosaic.Lib.StableHlo
import Idealize.ShloMosaic.Lib.StableHlo.Run

noncomputable section

namespace LibHostRead

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations `ops` write exactly the references `W`, one each, paired in order. -/
def Aligned : List (HloOp τ sig Val) → List (Ref sig .tc) → Prop
  | [], [] => True
  | op :: ops, y :: W => op.writes = {Proc.devRef (τ := τ) .tc y} ∧ Aligned ops W
  | [], _ :: _ => False
  | _ :: _, [] => False

theorem Aligned.drop : ∀ {ops : List (HloOp τ sig Val)} {W : List (Ref sig .tc)}, Aligned ops W →
    ∀ n : Nat, Aligned (ops.drop n) (W.drop n)
  | _, _, h, 0 => h
  | [], [], _, _ + 1 => trivial
  | _ :: _, _ :: _, h, n + 1 => Aligned.drop h.2 n
  | [], _ :: _, h, _ + 1 => h.elim
  | _ :: _, [], h, _ + 1 => h.elim

/-- Every operation of an aligned line writes one reference, and that reference is in the list. -/
theorem Aligned.writes_of_mem : ∀ {ops : List (HloOp τ sig Val)} {W : List (Ref sig .tc)}, Aligned ops W →
    ∀ op ∈ ops, ∃ y ∈ W, op.writes = {Proc.devRef (τ := τ) .tc y}
  | [], [], _, _, hop => (List.not_mem_nil hop).elim
  | o :: _, y :: _, h, op, hop => by
    rcases List.mem_cons.mp hop with rfl | hop
    · exact ⟨y, List.mem_cons_self, h.1⟩
    · obtain ⟨z, hz, e⟩ := Aligned.writes_of_mem h.2 op hop
      exact ⟨z, List.mem_cons_of_mem _ hz, e⟩
  | [], _ :: _, h, _, _ => h.elim
  | _ :: _, [], h, _, _ => h.elim

/-- A reference not among those written after position `k` is written by no operation after position `k`. -/
theorem Aligned.not_written_after {ops : List (HloOp τ sig Val)} {W : List (Ref sig .tc)} (hA : Aligned ops W) (k : Nat)
    {r : Ref sig .tc} (hr : r ∉ W.drop (k + 1)) : ∀ op ∈ ops.drop (k + 1), Proc.devRef (τ := τ) .tc r ∉ op.writes := by
  intro op hop hmem
  obtain ⟨y, hy, e⟩ := (hA.drop (k + 1)).writes_of_mem op hop
  rw [e, Finset.mem_singleton] at hmem
  exact hr (Proc.devRef_injective _ hmem ▸ hy)

/-- The contents of a buffer after the line, when nothing after position `k` writes it: what operation `k` leaves
    there, run from the contents the operations before it leave. -/
theorem after_eq_result_of_not_written {ops : List (HloOp τ sig Val)} {k : Nat} {op : HloOp τ sig Val}
    (hk : ops[k]? = some op) (V : Valuation τ sig Val) {b : DevRef τ sig}
    (hpost : ∀ o ∈ ops.drop (k + 1), b ∉ o.writes) :
    after ops V b = op.result (after (ops.take k) V) b := by
  obtain ⟨hlt, rfl⟩ := List.getElem?_eq_some_iff.mp hk
  have hsplit : ops = ops.take k ++ ops[k] :: ops.drop (k + 1) := by
    rw [← List.drop_eq_getElem_cons hlt, List.take_append_drop]
  conv_lhs => rw [hsplit]
  rw [after_append, after_cons, after_of_forall_not_mem _ _ hpost]

section Fix

variable {ops : List (HloOp τ sig Val)} {W : List (Ref sig .tc)} (hA : Aligned ops W) (k : Nat)
include hA

/-- A constant's buffer holds the constant at the end. -/
theorem after_nullary_fix {y : Ref sig .tc} {v : y.ty.Contents Val} {hy}
    (hk : ops[k]? = some (nullary y v hy)) (hy' : y ∉ W.drop (k + 1)) (V : Valuation τ sig Val) :
    after ops V (Proc.devRef .tc y) = v := by
  rw [after_eq_result_of_not_written hk V (hA.not_written_after k hy'), nullary_result]

/-- A one-operand operation's result buffer holds, at the end, its function of the operand's final contents. -/
theorem after_unary_fix {x y : Ref sig .tc} {f : x.ty.Contents Val → y.ty.Contents Val} {hx hy}
    (hk : ops[k]? = some (unary x y f hx hy)) (hxy : x ≠ y) (hx' : x ∉ W.drop (k + 1)) (hy' : y ∉ W.drop (k + 1))
    (V : Valuation τ sig Val) :
    after ops V (Proc.devRef .tc y) = f (after ops V (Proc.devRef .tc x)) := by
  rw [after_eq_result_of_not_written hk V (hA.not_written_after k hy'), unary_result,
    after_eq_result_of_not_written hk V (hA.not_written_after k hx'), unary_result_ne _ _ _ _ _ _ hxy]

/-- A two-operand operation's. -/
theorem after_binary_fix {a b y : Ref sig .tc} {f : a.ty.Contents Val → b.ty.Contents Val → y.ty.Contents Val} {ha hb hy}
    (hk : ops[k]? = some (binary a b y f ha hb hy)) (hay : a ≠ y) (hby : b ≠ y)
    (ha' : a ∉ W.drop (k + 1)) (hb' : b ∉ W.drop (k + 1)) (hy' : y ∉ W.drop (k + 1)) (V : Valuation τ sig Val) :
    after ops V (Proc.devRef .tc y) = f (after ops V (Proc.devRef .tc a)) (after ops V (Proc.devRef .tc b)) := by
  rw [after_eq_result_of_not_written hk V (hA.not_written_after k hy'), binary_result,
    after_eq_result_of_not_written hk V (hA.not_written_after k ha'), binary_result_ne _ _ _ _ _ _ _ _ hay,
    after_eq_result_of_not_written hk V (hA.not_written_after k hb'), binary_result_ne _ _ _ _ _ _ _ _ hby]

/-- A three-operand operation's. -/
theorem after_ternary_fix {c a b y : Ref sig .tc}
    {f : c.ty.Contents Val → a.ty.Contents Val → b.ty.Contents Val → y.ty.Contents Val} {hc ha hb hy}
    (hk : ops[k]? = some (ternary c a b y f hc ha hb hy)) (hcy : c ≠ y) (hay : a ≠ y) (hby : b ≠ y)
    (hc' : c ∉ W.drop (k + 1)) (ha' : a ∉ W.drop (k + 1)) (hb' : b ∉ W.drop (k + 1)) (hy' : y ∉ W.drop (k + 1))
    (V : Valuation τ sig Val) :
    after ops V (Proc.devRef .tc y)
      = f (after ops V (Proc.devRef .tc c)) (after ops V (Proc.devRef .tc a)) (after ops V (Proc.devRef .tc b)) := by
  rw [after_eq_result_of_not_written hk V (hA.not_written_after k hy'), ternary_result,
    after_eq_result_of_not_written hk V (hA.not_written_after k hc'), ternary_result_ne _ _ _ _ _ _ _ _ _ _ hcy,
    after_eq_result_of_not_written hk V (hA.not_written_after k ha'), ternary_result_ne _ _ _ _ _ _ _ _ _ _ hay,
    after_eq_result_of_not_written hk V (hA.not_written_after k hb'), ternary_result_ne _ _ _ _ _ _ _ _ _ _ hby]

/-- A reshape's result buffer holds, at the end, the operand's final contents in row-major order at the result's shape. -/
theorem after_reshape_fix {x y : Ref sig .tc} {he : x.ty.elt = y.ty.elt} {hn : x.ty.shape.ShapeCasts y.ty.shape} {hx hy}
    (hk : ops[k]? = some (reshape x y he hn hx hy)) (hxy : x ≠ y) (hx' : x ∉ W.drop (k + 1)) (hy' : y ∉ W.drop (k + 1))
    (V : Valuation τ sig Val) :
    after ops V (Proc.devRef .tc y) = fun i => he ▸ shapeCast y.ty.shape (after ops V (Proc.devRef .tc x)) hn i := by
  rw [after_eq_result_of_not_written hk V (hA.not_written_after k hy'), reshape_result,
    after_eq_result_of_not_written hk V (hA.not_written_after k hx'), reshape_result_ne _ _ _ _ _ _ _ hxy]

end Fix

/-- A reference the line never writes keeps its contents (for the line's arguments). -/
theorem after_of_not_written {ops : List (HloOp τ sig Val)} {W : List (Ref sig .tc)} (hA : Aligned ops W)
    {r : Ref sig .tc} (hr : r ∉ W) (V : Valuation τ sig Val) :
    after ops V (Proc.devRef .tc r) = V (Proc.devRef .tc r) :=
  after_of_forall_not_mem ops V fun op hop hmem => by
    obtain ⟨y, hy, e⟩ := hA.writes_of_mem op hop
    rw [e, Finset.mem_singleton] at hmem
    exact hr (Proc.devRef_injective _ hmem ▸ hy)

end LibHostRead

end
-- ==== Proof.PreludeLine.lean ====
/-
  The host line before the region, in single-assignment form.

  The operations that run before the region write one buffer each, and no buffer twice. `W` lists the buffers
  written, in the order of the operations, and `aligned` says that the k-th operation writes exactly the k-th
  buffer of the list. With it the contents of any of those buffers at the end of the line is the operation's own
  function of the final contents of its operands.
-/
import proofs.«121121_j90924457656974_2_alg».proof.Proof.Gen.KernelIdeal.Frame
import proofs.«121121_j90924457656974_2_alg».proof.Proof.LibHostRead

set_option maxRecDepth 16384

noncomputable section

namespace Cert.KernelIdeal.Prelude

open Idealize.ShloMosaic Idealize.ShloMosaic.StableHlo
open Cert.KernelIdeal Cert.KernelIdeal.Gen

variable {F : FTy → Type} [FloatOps F]

/-- The buffers the host line writes, one per operation, in the order of the operations. -/
def W : List (Ref sig .tc) :=
  [
    main_v0, main_v1, main_v2, main_cst, main_v3, main_c, main_v4, main_c_0, main_v5, main_v6,
    main_v7, main_c_1, main_v8, main_c_2, main_v9, main_v10, main_v11, main_c_3, main_v12, main_c_4,
    main_v13, main_v14, main_v15, main_c_5, main_v16, main_c_6, main_v17, main_v18, main_v19, main_c_7,
    main_v20, main_c_8, main_v21, main_v22, main_v23, main_c_9, main_v24, main_c_10, main_v25, main_v26,
    main_v27, main_c_11, main_v28, main_c_12, main_v29, main_v30, main_v31, main_c_13, main_v32, main_c_14,
    main_v33, main_v34, main_v35, main_v36, main_v37, main_cst_15, main_v38, main_c_16, main_v39, main_c_17,
    main_v40, main_v41, main_v42, main_c_18, main_v43, main_c_19, main_v44, main_v45, main_v46, main_c_20,
    main_v47, main_c_21, main_v48, main_v49, main_v50, main_c_22, main_v51, main_c_23, main_v52, main_v53,
    main_v54, main_c_24, main_v55, main_c_25, main_v56, main_v57, main_v58, main_c_26, main_v59, main_c_27,
    main_v60, main_v61, main_v62, main_c_28, main_v63, main_c_29, main_v64, main_v65, main_v66, main_c_30,
    main_v67, main_c_31, main_v68, main_v69, main_v70, main_v71, main_v72, main_cst_32, main_v73, main_c_33,
    main_v74, main_c_34, main_v75, main_v76, main_v77, main_c_35, main_v78, main_c_36, main_v79, main_v80,
    main_v81, main_c_37, main_v82, main_c_38, main_v83, main_v84, main_v85, main_c_39, main_v86, main_c_40,
    main_v87, main_v88, main_v89, main_c_41, main_v90, main_c_42, main_v91, main_v92, main_v93, main_c_43,
    main_v94, main_c_44, main_v95, main_v96, main_v97, main_c_45, main_v98, main_c_46, main_v99, main_v100,
    main_v101, main_c_47, main_v102, main_c_48, main_v103, main_v104, main_v105, main_v106, main_v107, main_cst_49,
    main_v108, main_c_50, main_v109, main_c_51, main_v110, main_v111, main_v112, main_c_52, main_v113, main_c_53,
    main_v114, main_v115, main_v116, main_c_54, main_v117, main_c_55, main_v118, main_v119, main_v120, main_c_56,
    main_v121, main_c_57, main_v122, main_v123, main_v124, main_c_58, main_v125, main_c_59, main_v126, main_v127,
    main_v128, main_c_60, main_v129, main_c_61, main_v130, main_v131, main_v132, main_c_62, main_v133, main_c_63,
    main_v134, main_v135, main_v136, main_c_64, main_v137, main_c_65, main_v138, main_v139, main_v140, main_v141,
    main_v142, main_cst_66, main_v143, main_c_67, main_v144, main_c_68, main_v145, main_v146, main_v147, main_c_69,
    main_v148, main_c_70, main_v149, main_v150, main_v151, main_c_71, main_v152, main_c_72, main_v153, main_v154,
    main_v155, main_c_73, main_v156, main_c_74, main_v157, main_v158, main_v159, main_c_75, main_v160, main_c_76,
    main_v161, main_v162, main_v163, main_c_77, main_v164, main_c_78, main_v165, main_v166, main_v167, main_c_79,
    main_v168, main_c_80, main_v169, main_v170, main_v171, main_c_81, main_v172, main_c_82, main_v173, main_v174,
    main_v175
  ]

theorem aligned_cons {op : HloOp τ sig (Elt F)} {ops : List (HloOp τ sig (Elt F))} {y : Ref sig .tc} {L : List (Ref sig .tc)}
    (h1 : op.writes = {Proc.devRef (τ := τ) .tc y}) (h2 : LibHostRead.Aligned ops L) : LibHostRead.Aligned (op :: ops) (y :: L) := ⟨h1, h2⟩

set_option maxHeartbeats 4000000 in
/-- Operation number k of the line writes the k-th buffer of `W`, and only it. -/
theorem aligned : LibHostRead.Aligned (hostOps0 : List (HloOp τ sig (Elt F))) W := by
  unfold W
  repeat (first | exact trivial | refine aligned_cons rfl ?_)

/-- The line is one stretch of operations. -/
theorem flat : List.flatten [(hostOps0 : List (HloOp τ sig (Elt F)))] = hostOps0 := by
  simp only [List.flatten_cons, List.flatten_nil, List.append_nil]

end Cert.KernelIdeal.Prelude

end
-- ==== Proof.PreludeOps.lean ====
/-
  Reading one operation of the host line.

  When the region is entered, the buffer an operation of the line wrote holds that operation's function of what
  its operand buffers hold at that moment (the line writes every buffer once, and never an operand after it was
  read). One statement per kind of operation, over the contents `Gen.V` the region finds.
-/
import proofs.«121121_j90924457656974_2_alg».proof.Proof.PreludeLine
import Idealize.ShloMosaic.Lib.ValueIdx

set_option maxRecDepth 16384

noncomputable section

namespace Cert.KernelIdeal.Prelude

open Idealize.ShloMosaic Idealize.ShloMosaic.StableHlo Idealize.ShloMosaic.ValueIdx
open Cert.KernelIdeal Cert.KernelIdeal.Gen

variable {F : FTy → Type} [FloatOps F]
variable (m : (ℓ : Loc nD τ sig) → Buf (Elt F) ℓ) (c : Dev nD)

/-- What the region finds is what the line leaves. -/
theorem V0_eq : V0 m c = after hostOps0 (fun b => m (c, b)) := by
  show after (List.flatten [hostOps0]) _ = _
  rw [flat]

/-- A constant's buffer holds the constant. -/
theorem V_nullary {y : Ref sig .tc} {v : y.ty.Contents (Elt F)} {hy} (k : Nat)
    (hk : (hostOps0 : List (HloOp τ sig (Elt F)))[k]? = some (nullary y v hy)) (hy' : y ∉ W.drop (k + 1)) :
    V m c y = v := by
  show V0 m c (Proc.devRef .tc y) = v
  rw [V0_eq]
  exact LibHostRead.after_nullary_fix aligned k hk hy' _

/-- A one-operand operation's result buffer holds its function of what the operand buffer holds. -/
theorem V_unary {x y : Ref sig .tc} {f : x.ty.Contents (Elt F) → y.ty.Contents (Elt F)} {hx hy} (k : Nat)
    (hk : (hostOps0 : List (HloOp τ sig (Elt F)))[k]? = some (unary x y f hx hy)) (hxy : x ≠ y)
    (hx' : x ∉ W.drop (k + 1)) (hy' : y ∉ W.drop (k + 1)) :
    V m c y = f (V m c x) := by
  show V0 m c (Proc.devRef .tc y) = f (V0 m c (Proc.devRef .tc x))
  rw [V0_eq]
  exact LibHostRead.after_unary_fix aligned k hk hxy hx' hy' _

/-- A two-operand operation's. -/
theorem V_binary {a b y : Ref sig .tc} {f : a.ty.Contents (Elt F) → b.ty.Contents (Elt F) → y.ty.Contents (Elt F)} {ha hb hy}
    (k : Nat) (hk : (hostOps0 : List (HloOp τ sig (Elt F)))[k]? = some (binary a b y f ha hb hy)) (hay : a ≠ y) (hby : b ≠ y)
    (ha' : a ∉ W.drop (k + 1)) (hb' : b ∉ W.drop (k + 1)) (hy' : y ∉ W.drop (k + 1)) :
    V m c y = f (V m c a) (V m c b) := by
  show V0 m c (Proc.devRef .tc y) = f (V0 m c (Proc.devRef .tc a)) (V0 m c (Proc.devRef .tc b))
  rw [V0_eq]
  exact LibHostRead.after_binary_fix aligned k hk hay hby ha' hb' hy' _

/-- A three-operand operation's. -/
theorem V_ternary {e a b y : Ref sig .tc}
    {f : e.ty.Contents (Elt F) → a.ty.Contents (Elt F) → b.ty.Contents (Elt F) → y.ty.Contents (Elt F)} {he ha hb hy}
    (k : Nat) (hk : (hostOps0 : List (HloOp τ sig (Elt F)))[k]? = some (ternary e a b y f he ha hb hy))
    (hey : e ≠ y) (hay : a ≠ y) (hby : b ≠ y)
    (he' : e ∉ W.drop (k + 1)) (ha' : a ∉ W.drop (k + 1)) (hb' : b ∉ W.drop (k + 1)) (hy' : y ∉ W.drop (k + 1)) :
    V m c y = f (V m c e) (V m c a) (V m c b) := by
  show V0 m c (Proc.devRef .tc y)
    = f (V0 m c (Proc.devRef .tc e)) (V0 m c (Proc.devRef .tc a)) (V0 m c (Proc.devRef .tc b))
  rw [V0_eq]
  exact LibHostRead.after_ternary_fix aligned k hk hey hay hby he' ha' hb' hy' _

/-- A reshape's result buffer holds the operand buffer's contents in row-major order at the new shape. -/
theorem V_reshape {x y : Ref sig .tc} {he : x.ty.elt = y.ty.elt} {hn : x.ty.shape.ShapeCasts y.ty.shape} {hx hy} (k : Nat)
    (hk : (hostOps0 : List (HloOp τ sig (Elt F)))[k]? = some (reshape x y he hn hx hy)) (hxy : x ≠ y)
    (hx' : x ∉ W.drop (k + 1)) (hy' : y ∉ W.drop (k + 1)) :
    V0 m c (Proc.devRef .tc y) = fun i => he ▸ shapeCast y.ty.shape (V0 m c (Proc.devRef .tc x)) hn i := by
  rw [V0_eq]
  exact LibHostRead.after_reshape_fix aligned k hk hxy hx' hy' _

end Cert.KernelIdeal.Prelude

end
-- ==== Proof.PreludeX.lean ====
/-
  The packed input.

  The first buffer the region reads is the sample array re-laid in row-major order: eight consecutive samples of
  32 features side by side in one row of 256. Entry (r, k) of the packed array is feature k % 32 of sample
  8 r + k / 32.
-/
import proofs.«121121_j90924457656974_2_alg».proof.Proof.PreludeOps
import Idealize.ShloMosaic.Lib.ValueIdx
import Idealize.ShloMosaic.Lib.Pipeline.Value

set_option maxRecDepth 16384

noncomputable section

namespace Cert.KernelIdeal.Prelude

open Idealize.ShloMosaic Idealize.ShloMosaic.StableHlo Idealize.ShloMosaic.ValueIdx Idealize.ShloMosaic.TcCoe
open Cert.KernelIdeal Cert.KernelIdeal.Gen

variable (m : (ℓ : Loc nD τ sig) → Buf (Elt Ideal) ℓ) (c : Dev nD)

/-- Entry (r, k) of the packed input is entry (8 r + k / 32, k % 32) of the sample array. -/
theorem V_x (r : Fin 131072) (k : Fin 256) :
    (V (F := Ideal) m c main_v0 : S131072x256.Idx → EReal) (ix2 r k)
      = (m ((c : Thread nD τ).loc main_arg0) : S1048576x32.Idx → EReal)
          (ix2 ⟨8 * r.val + k.val / 32, by omega⟩ ⟨k.val % 32, Nat.mod_lt _ (by decide)⟩) := by
  show (V0 (F := Ideal) m c (Proc.devRef .tc main_v0) : S131072x256.Idx → EReal) (ix2 r k) = _
  rw [V_reshape m c 0 rfl (by decide) (by decide) (by decide)]
  show shapeCast S131072x256 (V (F := Ideal) m c main_arg0 : S1048576x32.Idx → EReal)
      shapeCasts_S1048576x32_S131072x256 (ix2 r k) = _
  rw [V_main_arg0]
  refine shapeCast_apply _ _ _ _ ?_
  show (S1048576x32.rowMajor (ix2 _ _)).val = (S131072x256.rowMajor (ix2 r k)).val
  rw [Shape.rowMajor_val_two, Shape.rowMajor_val_two]
  show (8 * r.val + k.val / 32) * 32 + k.val % 32 = r.val * 256 + k.val
  omega

end Cert.KernelIdeal.Prelude

end
-- ==== Proof.LibWindowScatter.lean ====
/-
  A scatter whose body returns the update and whose dimension numbers write ONE rectangular window of a matrix:
  what `a.at[r0:r0+m, c0:c0+n].set(u)` lowers to.

  * Two facts about any such scatter, whatever its dimension numbers: an element no update lands on keeps its old
    value, and an element exactly one update lands on takes that update's value.
  * For the window dimension numbers (both update axes are window axes, nothing inserted, the index vector gives the
    row start and the column start): update element (p, q) lands at (r0 + p, c0 + q), so the result is the update
    inside the rectangle and the operand outside.
  * The start vector read off a concatenation of two one-element arrays, each a broadcast scalar constant.
  * Writing the same m × n block at (k·m, k·n) for k = 0, 1, 2, … builds a block-diagonal matrix one block at a time.
-/
import Idealize.ShloMosaic.Lib.ValueIdx
import Idealize.ShloMosaic.Lib.Pipeline.Value
import Idealize.ShloMosaic.PureOps.ShapeOps

noncomputable section

namespace Cert.LibWindowScatter

open Idealize.ShloMosaic Idealize.ShloMosaic.ValueIdx

/-! ## A fold of overwrites -/

section Fold
variable {α ι κ : Type} [DecidableEq ι]

/-- Overwrites applied one after another — step n overwrites index g n with v n when g n is an index, and does
    nothing otherwise —: an index that no step targets keeps the value it started with. -/
theorem foldl_overwrite_miss (g : κ → Option ι) (v : κ → α) (stepf : (ι → α) → κ → ι → α)
    (hs : ∀ r n i0, g n = some i0 → stepf r n = fun i' => if i' = i0 then v n else r i')
    (hn : ∀ r n, g n = none → stepf r n = r) (i : ι) :
    ∀ (l : List κ) (r0 : ι → α), (∀ n ∈ l, g n ≠ some i) → (l.foldl stepf r0) i = r0 i := by
  intro l
  induction l with
  | nil => intro r0 _; rfl
  | cons n l ih =>
    intro r0 h
    rw [List.foldl_cons, ih _ (fun k hk => h k (List.mem_cons_of_mem _ hk))]
    have hn' := h n List.mem_cons_self
    cases hg : g n with
    | none => rw [hn r0 n hg]
    | some i0 =>
      rw [hs r0 n i0 hg]
      exact if_neg (fun e => hn' (by rw [hg, e]))

/-- The same overwrites over a list without repeats: an index that exactly one step targets ends with that step's
    value. -/
theorem foldl_overwrite_hit (g : κ → Option ι) (v : κ → α) (stepf : (ι → α) → κ → ι → α)
    (hs : ∀ r n i0, g n = some i0 → stepf r n = fun i' => if i' = i0 then v n else r i')
    (hn : ∀ r n, g n = none → stepf r n = r) (i : ι) (n0 : κ) (hg0 : g n0 = some i) :
    ∀ (l : List κ) (r0 : ι → α), l.Nodup → n0 ∈ l → (∀ n ∈ l, g n = some i → n = n0) →
      (l.foldl stepf r0) i = v n0 := by
  intro l
  induction l with
  | nil => intro r0 _ hm; exact absurd hm List.not_mem_nil
  | cons n l ih =>
    intro r0 hnd hm hu
    rw [List.foldl_cons]
    rcases List.mem_cons.1 hm with rfl | hm'
    · rw [foldl_overwrite_miss g v stepf hs hn i l _ (fun k hk e => by
        have hk0 := hu k (List.mem_cons_of_mem _ hk) e
        exact (List.nodup_cons.1 hnd).1 (hk0 ▸ hk)), hs r0 n0 i hg0]
      exact if_pos rfl
    · exact ih _ (List.nodup_cons.1 hnd).2 hm' (fun k hk => hu k (List.mem_cons_of_mem _ hk))

end Fold

/-! ## Any scatter whose body returns the update -/

section Scatter
variable {α : Type} {s si u : Shape} {w : Nat}

/-- An element that no update element lands on keeps the operand's value. -/
theorem scatter_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  unfold Host.scatter
  refine foldl_overwrite_miss (fun n => d.resultIdx? (u.rowMajor.symm n) idx) (fun n => upd (u.rowMajor.symm n)) _
    (fun r n i0 e => ?_) (fun r n e => ?_) i _ x (fun n _ => h _)
  · have e' : d.resultIdx? (u.rowMajor.symm n) idx = some i0 := e
    dsimp only
    rw [e']
  · have e' : d.resultIdx? (u.rowMajor.symm n) idx = none := e
    dsimp only
    rw [e']

/-- An element that exactly one update element lands on takes that update element's value. -/
theorem scatter_hit (d : ScatterDims s si u) (x : s.Idx → α) (idx : IVec si w) (upd : u.Idx → α) (i : s.Idx)
    (j : u.Idx) (hj : d.resultIdx? j idx = some i) (huniq : ∀ j' : u.Idx, d.resultIdx? j' idx = some i → j' = j) :
    Host.scatter d (fun _ b => b) x idx upd i = upd j := by
  unfold Host.scatter
  refine (foldl_overwrite_hit (fun n => d.resultIdx? (u.rowMajor.symm n) idx) (fun n => upd (u.rowMajor.symm n)) _
    (fun r n i0 e => ?_) (fun r n e => ?_) i (u.rowMajor j) (by simpa using hj) (List.finRange u.numel) x
    (List.nodup_finRange _) (List.mem_finRange _) (fun n _ e => by
      have := huniq _ e
      rw [← this, Equiv.apply_symm_apply])).trans ?_
  · have e' : d.resultIdx? (u.rowMajor.symm n) idx = some i0 := e
    dsimp only
    rw [e']
  · have e' : d.resultIdx? (u.rowMajor.symm n) idx = none := e
    dsimp only
    rw [e']
  · show upd (u.rowMajor.symm (u.rowMajor j)) = upd j
    rw [Equiv.symm_apply_apply]

end Scatter

/-! ## The window dimension numbers -/

/-- The dimension numbers of a scatter that writes an m × n update as one window of an M × N operand: both update
    axes are window axes, no operand axis is inserted, and the two-element index vector names the row start and the
    column start. -/
abbrev windowDims {M N m n : Nat}
    (wf : ScatterDims.WF (⟨2, ![M, N]⟩ : Shape) ⟨1, ![2]⟩ ⟨2, ![m, n]⟩ [0, 1] [] [0, 1] 0) :
    ScatterDims ⟨2, ![M, N]⟩ ⟨1, ![2]⟩ ⟨2, ![m, n]⟩ := ⟨[0, 1], [], [0, 1], 0, wf⟩

section Window
variable {α : Type} {M N m n w : Nat}
  (wf : ScatterDims.WF (⟨2, ![M, N]⟩ : Shape) ⟨1, ![2]⟩ ⟨2, ![m, n]⟩ [0, 1] [] [0, 1] 0)

/-- Every update element reads component c of the start vector at position c of the index operand. -/
theorem window_siIdx (j : (⟨2, ![m, n]⟩ : Shape).Idx) (c : Fin (windowDims wf).scatterDimsToOperandDims.length) :
    (windowDims wf).siIdx j c = ix1 (⟨c.val, c.isLt⟩ : Fin 2) := by
  funext b
  match b with
  | ⟨0, _⟩ => rfl

/-- The window starts, on the row axis, at the first entry of the index operand read as a signed integer … -/
theorem window_start0 (j : (⟨2, ![m, n]⟩ : Shape).Idx) (idx : IVec ⟨1, ![2]⟩ w) :
    (windowDims wf).start j idx 0 = (idx (ix1 (0 : Fin 2))).toInt := by
  unfold ScatterDims.start
  rw [dif_pos (show (0 : Fin (⟨2, ![M, N]⟩ : Shape).rank) ∈ (windowDims wf).scatterDimsToOperandDims from List.mem_cons_self),
    window_siIdx]
  rfl

/-- … and on the column axis at the second. -/
theorem window_start1 (j : (⟨2, ![m, n]⟩ : Shape).Idx) (idx : IVec ⟨1, ![2]⟩ w) :
    (windowDims wf).start j idx 1 = (idx (ix1 (1 : Fin 2))).toInt := by
  unfold ScatterDims.start
  rw [dif_pos (show (1 : Fin (⟨2, ![M, N]⟩ : Shape).rank) ∈ (windowDims wf).scatterDimsToOperandDims from
      List.mem_cons_of_mem _ List.mem_cons_self),
    window_siIdx]
  rfl

/-- No operand axis is inserted: both are window axes, in order. -/
theorem window_sKept : (windowDims wf).sKept = [0, 1] := rfl

/-- The window coordinate on the row axis is the update element's row … -/
theorem window_window0 (j : (⟨2, ![m, n]⟩ : Shape).Idx) : (windowDims wf).window j 0 = (j 0).val := by
  unfold ScatterDims.window
  rw [dif_pos (show (0 : Fin (⟨2, ![M, N]⟩ : Shape).rank) ∈ (windowDims wf).sKept from
    (window_sKept wf).symm ▸ List.mem_cons_self)]
  rfl

/-- … and on the column axis its column. -/
theorem window_window1 (j : (⟨2, ![m, n]⟩ : Shape).Idx) : (windowDims wf).window j 1 = (j 1).val := by
  unfold ScatterDims.window
  rw [dif_pos (show (1 : Fin (⟨2, ![M, N]⟩ : Shape).rank) ∈ (windowDims wf).sKept from
    (window_sKept wf).symm ▸ List.mem_cons_of_mem _ List.mem_cons_self)]
  rfl

/-- With the start vector (r0, c0) and the window inside the operand, update element (p, q) lands at (r0 + p, c0 + q). -/
theorem window_resultIdx (idx : IVec ⟨1, ![2]⟩ w) (r0 c0 : ℕ)
    (hr : (idx (ix1 (0 : Fin 2))).toInt = r0) (hc : (idx (ix1 (1 : Fin 2))).toInt = c0)
    (hM : r0 + m ≤ M) (hN : c0 + n ≤ N) (p : Fin m) (q : Fin n) :
    (windowDims wf).resultIdx? (ix2 p q) idx
      = some (ix2 (⟨r0 + p.val, by have := p.isLt; omega⟩ : Fin M) (⟨c0 + q.val, by have := q.isLt; omega⟩ : Fin N)) := by
  have h0 : (windowDims wf).start (ix2 p q) idx 0 + (windowDims wf).window (ix2 p q) 0 = ((r0 + p.val : ℕ) : ℤ) := by
    rw [window_start0, window_window0, hr]; push_cast; rfl
  have h1 : (windowDims wf).start (ix2 p q) idx 1 + (windowDims wf).window (ix2 p q) 1 = ((c0 + q.val : ℕ) : ℤ) := by
    rw [window_start1, window_window1, hc]; push_cast; rfl
  unfold ScatterDims.resultIdx?
  rw [dif_pos (fun a => by
    match a with
    | ⟨0, _⟩ =>
      have := p.isLt
      show 0 ≤ (windowDims wf).start (ix2 p q) idx 0 + (windowDims wf).window (ix2 p q) 0
        ∧ (windowDims wf).start (ix2 p q) idx 0 + (windowDims wf).window (ix2 p q) 0 < ((M : ℕ) : ℤ)
      rw [h0]; omega
    | ⟨1, _⟩ =>
      have := q.isLt
      show 0 ≤ (windowDims wf).start (ix2 p q) idx 1 + (windowDims wf).window (ix2 p q) 1
        ∧ (windowDims wf).start (ix2 p q) idx 1 + (windowDims wf).window (ix2 p q) 1 < ((N : ℕ) : ℤ)
      rw [h1]; omega)]
  congr 1
  funext a
  match a with
  | ⟨0, _⟩ =>
    refine Fin.ext ?_
    show ((windowDims wf).start (ix2 p q) idx 0 + (windowDims wf).window (ix2 p q) 0).toNat = r0 + p.val
    rw [h0]; omega
  | ⟨1, _⟩ =>
    refine Fin.ext ?_
    show ((windowDims wf).start (ix2 p q) idx 1 + (windowDims wf).window (ix2 p q) 1).toNat = c0 + q.val
    rw [h1]; omega

/-- A window scatter reads, inside the rectangle of m rows from r0 and n columns from c0, the update at the
    coordinates relative to the rectangle's corner, and the operand everywhere else. -/
theorem window_scatter_apply (x : (⟨2, ![M, N]⟩ : Shape).Idx → α) (idx : IVec ⟨1, ![2]⟩ w)
    (upd : (⟨2, ![m, n]⟩ : Shape).Idx → α) (r0 c0 : ℕ)
    (hr : (idx (ix1 (0 : Fin 2))).toInt = r0) (hc : (idx (ix1 (1 : Fin 2))).toInt = c0)
    (hM : r0 + m ≤ M) (hN : c0 + n ≤ N) (P : Fin M) (Q : Fin N) :
    Host.scatter (windowDims wf) (fun _ b => b) x idx upd (ix2 P Q)
      = if h : r0 ≤ P.val ∧ P.val < r0 + m ∧ c0 ≤ Q.val ∧ Q.val < c0 + n then
          upd (ix2 (⟨P.val - r0, by omega⟩ : Fin m) (⟨Q.val - c0, by omega⟩ : Fin n))
        else x (ix2 P Q) := by
  split
  · next h =>
    refine scatter_hit (windowDims wf) x idx upd _ _ ?_ ?_
    · rw [window_resultIdx wf idx r0 c0 hr hc hM hN]
      congr 2
      · exact Fin.ext (by show r0 + (P.val - r0) = P.val; omega)
      · exact Fin.ext (by show c0 + (Q.val - c0) = Q.val; omega)
    · intro j' e
      obtain ⟨p, q, rfl⟩ : ∃ (p : Fin m) (q : Fin n), j' = ix2 p q := ⟨j' 0, j' 1, eq_ix2 j'⟩
      rw [window_resultIdx wf idx r0 c0 hr hc hM hN] at e
      have e' := Option.some.inj e
      have e0 : r0 + p.val = P.val := congrArg Fin.val (congrFun e' 0)
      have e1 : c0 + q.val = Q.val := congrArg Fin.val (congrFun e' 1)
      congr 1
      · exact Fin.ext (by show p.val = P.val - r0; omega)
      · exact Fin.ext (by show q.val = Q.val - c0; omega)
  · next h =>
    refine scatter_miss (windowDims wf) x idx upd _ fun j' e => h ?_
    obtain ⟨p, q, rfl⟩ : ∃ (p : Fin m) (q : Fin n), j' = ix2 p q := ⟨j' 0, j' 1, eq_ix2 j'⟩
    rw [window_resultIdx wf idx r0 c0 hr hc hM hN] at e
    have e' := Option.some.inj e
    have e0 : r0 + p.val = P.val := congrArg Fin.val (congrFun e' 0)
    have e1 : c0 + q.val = Q.val := congrArg Fin.val (congrFun e' 1)
    have := p.isLt
    have := q.isLt
    omega

end Window

/-! ## The start vector of a program: two broadcast scalar constants laid end to end -/

section IndexOperand
variable {α : Type}

/-- Two one-element arrays laid end to end: position 0 reads the first … -/
theorem concat2_apply0 (a b : (⟨1, ![1]⟩ : Shape).Idx → α)
    (h : Shape.Concatenates [(⟨1, ![1]⟩ : Shape), ⟨1, ![1]⟩] ⟨1, ![2]⟩ 0) :
    concatenate ⟨1, ![2]⟩ 0 [⟨⟨1, ![1]⟩, a⟩, ⟨⟨1, ![1]⟩, b⟩] h (ix1 (0 : Fin 2)) = a (ix1 (0 : Fin 1)) := by
  show a _ = a _
  congr 1
  funext d
  match d with
  | ⟨0, _⟩ => rfl

/-- … and position 1 the second. -/
theorem concat2_apply1 (a b : (⟨1, ![1]⟩ : Shape).Idx → α)
    (h : Shape.Concatenates [(⟨1, ![1]⟩ : Shape), ⟨1, ![1]⟩] ⟨1, ![2]⟩ 0) :
    concatenate ⟨1, ![2]⟩ 0 [⟨⟨1, ![1]⟩, a⟩, ⟨⟨1, ![1]⟩, b⟩] h (ix1 (1 : Fin 2)) = b (ix1 (0 : Fin 1)) := by
  show b _ = b _
  congr 1
  funext d
  match d with
  | ⟨0, _⟩ => rfl

/-- A scalar integer constant broadcast to any shape reads as the constant everywhere. -/
theorem broadcast_constantI_apply {t : Shape} {w : Nat} (dims : Fin (⟨0, ![]⟩ : Shape).rank → Fin t.rank)
    (h : (⟨0, ![]⟩ : Shape).BroadcastsInDim t dims) (K : BitVec w) (j : t.Idx) :
    broadcastInDim t dims h (constantI ⟨0, ![]⟩ w K) j = K := rfl

end IndexOperand

/-! ## A block-diagonal matrix built one block at a time -/

section Diag
variable {α : Type} {M N m n : Nat}

/-- The M × N matrix whose first k diagonal m × n blocks are all the matrix u and whose every other entry is z:
    entry (P, Q) lies in a block when P / m = Q / n, and that block is one of the first k when the quotient is
    below k; inside a block the entry is u at the remainders. -/
def diagFill (hm : 0 < m) (hn : 0 < n) (u : (⟨2, ![m, n]⟩ : Shape).Idx → α) (z : α) (k : ℕ) :
    (⟨2, ![M, N]⟩ : Shape).Idx → α :=
  fun i =>
    if (i 0).val / m = (i 1).val / n ∧ (i 0).val / m < k then
      u (ix2 (⟨(i 0).val % m, Nat.mod_lt _ hm⟩ : Fin m) (⟨(i 1).val % n, Nat.mod_lt _ hn⟩ : Fin n))
    else z

/-- With no block written, every entry is z. -/
theorem diagFill_zero (hm : 0 < m) (hn : 0 < n) (u : (⟨2, ![m, n]⟩ : Shape).Idx → α) (z : α) :
    (diagFill hm hn u z 0 : (⟨2, ![M, N]⟩ : Shape).Idx → α) = fun _ => z := by
  funext i
  unfold diagFill
  rw [if_neg (fun h => Nat.not_lt_zero _ h.2)]

/-- The matrix read at coordinates. -/
theorem diagFill_apply (hm : 0 < m) (hn : 0 < n) (u : (⟨2, ![m, n]⟩ : Shape).Idx → α) (z : α) (k : ℕ)
    (P : Fin M) (Q : Fin N) :
    (diagFill hm hn u z k : (⟨2, ![M, N]⟩ : Shape).Idx → α) (ix2 P Q)
      = if P.val / m = Q.val / n ∧ P.val / m < k then
          u (ix2 (⟨P.val % m, Nat.mod_lt _ hm⟩ : Fin m) (⟨Q.val % n, Nat.mod_lt _ hn⟩ : Fin n))
        else z := rfl

/-- Writing u as the window at (k·m, k·n) over the matrix with k blocks gives the matrix with k + 1 blocks. -/
theorem diagFill_step {w : Nat}
    (wf : ScatterDims.WF (⟨2, ![M, N]⟩ : Shape) ⟨1, ![2]⟩ ⟨2, ![m, n]⟩ [0, 1] [] [0, 1] 0)
    (hm : 0 < m) (hn : 0 < n) (u : (⟨2, ![m, n]⟩ : Shape).Idx → α) (z : α) (k : ℕ) (idx : IVec ⟨1, ![2]⟩ w)
    (hr : (idx (ix1 (0 : Fin 2))).toInt = ((k * m : ℕ) : ℤ)) (hc : (idx (ix1 (1 : Fin 2))).toInt = ((k * n : ℕ) : ℤ))
    (hM : (k + 1) * m ≤ M) (hN : (k + 1) * n ≤ N) :
    Host.scatter (windowDims wf) (fun _ b => b) (diagFill hm hn u z k) idx u = diagFill hm hn u z (k + 1) := by
  funext i
  obtain ⟨P, Q, rfl⟩ : ∃ (P : Fin M) (Q : Fin N), i = ix2 P Q := ⟨i 0, i 1, eq_ix2 i⟩
  have hM' : k * m + m ≤ M := by rw [Nat.succ_mul] at hM; exact hM
  have hN' : k * n + n ≤ N := by rw [Nat.succ_mul] at hN; exact hN
  rw [window_scatter_apply wf _ idx u (k * m) (k * n) hr hc hM' hN' P Q, diagFill_apply, diagFill_apply]
  have hPdm : m * (P.val / m) + P.val % m = P.val := Nat.div_add_mod _ _
  have hQdn : n * (Q.val / n) + Q.val % n = Q.val := Nat.div_add_mod _ _
  have hPlt : P.val % m < m := Nat.mod_lt _ hm
  have hQlt : Q.val % n < n := Nat.mod_lt _ hn
  split
  · next h =>
    have hP : P.val / m = k := Nat.div_eq_of_lt_le h.1 (by rw [Nat.succ_mul]; exact h.2.1)
    have hQ : Q.val / n = k := Nat.div_eq_of_lt_le h.2.2.1 (by rw [Nat.succ_mul]; exact h.2.2.2)
    rw [if_pos ⟨hP.trans hQ.symm, by omega⟩]
    rw [hP, Nat.mul_comm] at hPdm
    rw [hQ, Nat.mul_comm] at hQdn
    congr 2
    · exact Fin.ext (by show P.val - k * m = P.val % m; omega)
    · exact Fin.ext (by show Q.val - k * n = Q.val % n; omega)
  · next h =>
    by_cases hk : P.val / m = Q.val / n ∧ P.val / m = k
    · exfalso
      apply h
      obtain ⟨hPQ, hP⟩ := hk
      have hQ : Q.val / n = k := hPQ ▸ hP
      rw [hP, Nat.mul_comm] at hPdm
      rw [hQ, Nat.mul_comm] at hQdn
      omega
    · have hiff : (P.val / m = Q.val / n ∧ P.val / m < k + 1) ↔ (P.val / m = Q.val / n ∧ P.val / m < k) :=
        ⟨fun ⟨a, b⟩ => ⟨a, by
          rcases Nat.lt_or_ge (P.val / m) k with c | c
          · exact c
          · exact absurd ⟨a, by omega⟩ hk⟩, fun ⟨a, b⟩ => ⟨a, by omega⟩⟩
      by_cases hc' : P.val / m = Q.val / n ∧ P.val / m < k
      · rw [if_pos hc', if_pos (hiff.2 hc')]
      · rw [if_neg hc', if_neg (fun e => hc' (hiff.1 e))]

/-- The same step with the start vector as a program spells it: two scalar constants K₁ and K₂, each broadcast to a
    one-element array, laid end to end. -/
theorem diagFill_step_const {w : Nat}
    (wf : ScatterDims.WF (⟨2, ![M, N]⟩ : Shape) ⟨1, ![2]⟩ ⟨2, ![m, n]⟩ [0, 1] [] [0, 1] 0)
    (hm : 0 < m) (hn : 0 < n) (u : (⟨2, ![m, n]⟩ : Shape).Idx → α) (z : α) (k : ℕ) (K₁ K₂ : BitVec w)
    (dims : Fin (⟨0, ![]⟩ : Shape).rank → Fin (⟨1, ![1]⟩ : Shape).rank)
    (hb : (⟨0, ![]⟩ : Shape).BroadcastsInDim ⟨1, ![1]⟩ dims)
    (hcat : Shape.Concatenates [(⟨1, ![1]⟩ : Shape), ⟨1, ![1]⟩] ⟨1, ![2]⟩ 0)
    (hr : K₁.toInt = ((k * m : ℕ) : ℤ)) (hc : K₂.toInt = ((k * n : ℕ) : ℤ))
    (hM : (k + 1) * m ≤ M) (hN : (k + 1) * n ≤ N) :
    Host.scatter (windowDims wf) (fun _ b => b) (diagFill hm hn u z k)
        (concatenate ⟨1, ![2]⟩ 0
          [⟨⟨1, ![1]⟩, broadcastInDim ⟨1, ![1]⟩ dims hb (constantI ⟨0, ![]⟩ w K₁)⟩,
           ⟨⟨1, ![1]⟩, broadcastInDim ⟨1, ![1]⟩ dims hb (constantI ⟨0, ![]⟩ w K₂)⟩] hcat) u
      = diagFill hm hn u z (k + 1) :=
  diagFill_step wf hm hn u z k _
    (by rw [concat2_apply0, broadcast_constantI_apply]; exact hr)
    (by rw [concat2_apply1, broadcast_constantI_apply]; exact hc) hM hN

end Diag

end Cert.LibWindowScatter

end
-- ==== Proof.PreludeW0.lean ====
/-
  The first block-diagonal weight.

  The second buffer the region reads is built by the host in nine steps: an all-zero 256 by 512 array, into which
  the transposed first-layer weight (32 by 64) is written eight times, at the offsets (32 i, 64 i), i = 0 … 7.
  After write i the first i diagonal blocks hold the transposed weight and everything else is still zero; after
  the eighth the array is the block-diagonal matrix with eight copies of the transposed weight.
-/
import proofs.«121121_j90924457656974_2_alg».proof.Proof.PreludeOps
import proofs.«121121_j90924457656974_2_alg».proof.Proof.LibWindowScatter
import Idealize.ShloMosaic.Lib.ValueIdx
import Idealize.ShloMosaic.Lib.Pipeline.Value
import Idealize.ShloMosaic.Lib.IdealHost

set_option maxRecDepth 16384

noncomputable section

namespace Cert.KernelIdeal.Prelude

open Idealize.ShloMosaic Idealize.ShloMosaic.StableHlo Idealize.ShloMosaic.ValueIdx Idealize.ShloMosaic.TcCoe
open Cert.KernelIdeal Cert.KernelIdeal.Gen Cert.LibWindowScatter

variable (m : (ℓ : Loc nD τ sig) → Buf (Elt Ideal) ℓ) (c : Dev nD)

/-- The block that is written on the diagonal is the transpose of the weight: entry (a, b) is the weight's (b, a).
    (The change of float format between them is the identity on extended reals.) -/
theorem w0_upd (a : Fin 32) (b : Fin 64) :
    (V (F := Ideal) m c main_v2 : S32x64.Idx → EReal) (ix2 a b) = (m ((c : Thread nD τ).loc main_arg1) : S64x32.Idx → EReal) (ix2 b a) := by
  rw [V_unary m c 2 rfl (by decide) (by decide) (by decide),
    V_unary m c 1 rfl (by decide) (by decide) (by decide), V_main_arg1]
  show transpose S32x64 [1, 0] (m ((c : Thread nD τ).loc main_arg1) : S64x32.Idx → EReal) transposes_S64x32_S32x64_1_0 (ix2 a b) = _
  exact transpose_apply _ _ _ _ _ (fun b' => match b' with | ⟨0, _⟩ => rfl | ⟨1, _⟩ => rfl)

/-- Before the first write the buffer is all zero. -/
theorem w0_s0 : (V (F := Ideal) m c main_v3 : S256x512.Idx → EReal) = diagFill (M := 256) (N := 512) (by decide) (by decide) (V (F := Ideal) m c main_v2 : S32x64.Idx → EReal) (0 : EReal) 0 := by
  rw [V_unary m c 4 rfl (by decide) (by decide) (by decide),
    V_nullary m c 3 rfl (by decide), diagFill_zero]
  funext j
  exact Ideal.ofBits_zero_bf16

/-- After write number 1 the first 1 diagonal block hold the update. -/
theorem w0_s1 : (V (F := Ideal) m c main_v7 : S256x512.Idx → EReal) = diagFill (M := 256) (N := 512) (by decide) (by decide) (V (F := Ideal) m c main_v2 : S32x64.Idx → EReal) (0 : EReal) 1 := by
  rw [V_ternary m c 10 rfl (by decide) (by decide) (by decide) (by decide) (by decide) (by decide) (by decide),
    V_binary m c 9 rfl (by decide) (by decide) (by decide) (by decide) (by decide),
    V_unary m c 6 rfl (by decide) (by decide) (by decide), V_nullary m c 5 rfl (by decide),
    V_unary m c 8 rfl (by decide) (by decide) (by decide), V_nullary m c 7 rfl (by decide),
    w0_s0 m c]
  exact diagFill_step_const scatter_S256x512_S2_S32x64_01_n_01_0_wf (by decide) (by decide) _ 0 0 0#32 0#32 _ _ _
    (by decide) (by decide) (by decide) (by decide)

/-- After write number 2 the first 2 diagonal blocks hold the update. -/
theorem w0_s2 : (V (F := Ideal) m c main_v11 : S256x512.Idx → EReal) = diagFill (M := 256) (N := 512) (by decide) (by decide) (V (F := Ideal) m c main_v2 : S32x64.Idx → EReal) (0 : EReal) 2 := by
  rw [V_ternary m c 16 rfl (by decide) (by decide) (by decide) (by decide) (by decide) (by decide) (by decide),
    V_binary m c 15 rfl (by decide) (by decide) (by decide) (by decide) (by decide),
    V_unary m c 12 rfl (by decide) (by decide) (by decide), V_nullary m c 11 rfl (by decide),
    V_unary m c 14 rfl (by decide) (by decide) (by decide), V_nullary m c 13 rfl (by decide),
    w0_s1 m c]
  exact diagFill_step_const scatter_S256x512_S2_S32x64_01_n_01_0_wf (by decide) (by decide) _ 0 1 32#32 64#32 _ _ _
    (by decide) (by decide) (by decide) (by decide)

/-- After write number 3 the first 3 diagonal blocks hold the update. -/
theorem w0_s3 : (V (F := Ideal) m c main_v15 : S256x512.Idx → EReal) = diagFill (M := 256) (N := 512) (by decide) (by decide) (V (F := Ideal) m c main_v2 : S32x64.Idx → EReal) (0 : EReal) 3 := by
  rw [V_ternary m c 22 rfl (by decide) (by decide) (by decide) (by decide) (by decide) (by decide) (by decide),
    V_binary m c 21 rfl (by decide) (by decide) (by decide) (by decide) (by decide),
    V_unary m c 18 rfl (by decide) (by decide) (by decide), V_nullary m c 17 rfl (by decide),
    V_unary m c 20 rfl (by decide) (by decide) (by decide), V_nullary m c 19 rfl (by decide),
    w0_s2 m c]
  exact diagFill_step_const scatter_S256x512_S2_S32x64_01_n_01_0_wf (by decide) (by decide) _ 0 2 64#32 128#32 _ _ _
    (by decide) (by decide) (by decide) (by decide)

/-- After write number 4 the first 4 diagonal blocks hold the update. -/
theorem w0_s4 : (V (F := Ideal) m c main_v19 : S256x512.Idx → EReal) = diagFill (M := 256) (N := 512) (by decide) (by decide) (V (F := Ideal) m c main_v2 : S32x64.Idx → EReal) (0 : EReal) 4 := by
  rw [V_ternary m c 28 rfl (by decide) (by decide) (by decide) (by decide) (by decide) (by decide) (by decide),
    V_binary m c 27 rfl (by decide) (by decide) (by decide) (by decide) (by decide),
    V_unary m c 24 rfl (by decide) (by decide) (by decide), V_nullary m c 23 rfl (by decide),
    V_unary m c 26 rfl (by decide) (by decide) (by decide), V_nullary m c 25 rfl (by decide),
    w0_s3 m c]
  exact diagFill_step_const scatter_S256x512_S2_S32x64_01_n_01_0_wf (by decide) (by decide) _ 0 3 96#32 192#32 _ _ _
    (by decide) (by decide) (by decide) (by decide)

/-- After write number 5 the first 5 diagonal blocks hold the update. -/
theorem w0_s5 : (V (F := Ideal) m c main_v23 : S256x512.Idx → EReal) = diagFill (M := 256) (N := 512) (by decide) (by decide) (V (F := Ideal) m c main_v2 : S32x64.Idx → EReal) (0 : EReal) 5 := by
  rw [V_ternary m c 34 rfl (by decide) (by decide) (by decide) (by decide) (by decide) (by decide) (by decide),
    V_binary m c 33 rfl (by decide) (by decide) (by decide) (by decide) (by decide),
    V_unary m c 30 rfl (by decide) (by decide) (by decide), V_nullary m c 29 rfl (by decide),
    V_unary m c 32 rfl (by decide) (by decide) (by decide), V_nullary m c 31 rfl (by decide),
    w0_s4 m c]
  exact diagFill_step_const scatter_S256x512_S2_S32x64_01_n_01_0_wf (by decide) (by decide) _ 0 4 128#32 256#32 _ _ _
    (by decide) (by decide) (by decide) (by decide)

/-- After write number 6 the first 6 diagonal blocks hold the update. -/
theorem w0_s6 : (V (F := Ideal) m c main_v27 : S256x512.Idx → EReal) = diagFill (M := 256) (N := 512) (by decide) (by decide) (V (F := Ideal) m c main_v2 : S32x64.Idx → EReal) (0 : EReal) 6 := by
  rw [V_ternary m c 40 rfl (by decide) (by decide) (by decide) (by decide) (by decide) (by decide) (by decide),
    V_binary m c 39 rfl (by decide) (by decide) (by decide) (by decide) (by decide),
    V_unary m c 36 rfl (by decide) (by decide) (by decide), V_nullary m c 35 rfl (by decide),
    V_unary m c 38 rfl (by decide) (by decide) (by decide), V_nullary m c 37 rfl (by decide),
    w0_s5 m c]
  exact diagFill_step_const scatter_S256x512_S2_S32x64_01_n_01_0_wf (by decide) (by decide) _ 0 5 160#32 320#32 _ _ _
    (by decide) (by decide) (by decide) (by decide)

/-- After write number 7 the first 7 diagonal blocks hold the update. -/
theorem w0_s7 : (V (F := Ideal) m c main_v31 : S256x512.Idx → EReal) = diagFill (M := 256) (N := 512) (by decide) (by decide) (V (F := Ideal) m c main_v2 : S32x64.Idx → EReal) (0 : EReal) 7 := by
  rw [V_ternary m c 46 rfl (by decide) (by decide) (by decide) (by decide) (by decide) (by decide) (by decide),
    V_binary m c 45 rfl (by decide) (by decide) (by decide) (by decide) (by decide),
    V_unary m c 42 rfl (by decide) (by decide) (by decide), V_nullary m c 41 rfl (by decide),
    V_unary m c 44 rfl (by decide) (by decide) (by decide), V_nullary m c 43 rfl (by decide),
    w0_s6 m c]
  exact diagFill_step_const scatter_S256x512_S2_S32x64_01_n_01_0_wf (by decide) (by decide) _ 0 6 192#32 384#32 _ _ _
    (by decide) (by decide) (by decide) (by decide)

/-- After write number 8 the first 8 diagonal blocks hold the update. -/
theorem w0_s8 : (V (F := Ideal) m c main_v35 : S256x512.Idx → EReal) = diagFill (M := 256) (N := 512) (by decide) (by decide) (V (F := Ideal) m c main_v2 : S32x64.Idx → EReal) (0 : EReal) 8 := by
  rw [V_ternary m c 52 rfl (by decide) (by decide) (by decide) (by decide) (by decide) (by decide) (by decide),
    V_binary m c 51 rfl (by decide) (by decide) (by decide) (by decide) (by decide),
    V_unary m c 48 rfl (by decide) (by decide) (by decide), V_nullary m c 47 rfl (by decide),
    V_unary m c 50 rfl (by decide) (by decide) (by decide), V_nullary m c 49 rfl (by decide),
    w0_s7 m c]
  exact diagFill_step_const scatter_S256x512_S2_S32x64_01_n_01_0_wf (by decide) (by decide) _ 0 7 224#32 448#32 _ _ _
    (by decide) (by decide) (by decide) (by decide)

/-- Entry (k, q) of the first block-diagonal weight: on diagonal block k / 32 = q / 64 the weight's entry (q % 64, k % 32), elsewhere zero. -/
theorem V_w0 (k : Fin 256) (q : Fin 512) :
    (V (F := Ideal) m c main_v35 : S256x512.Idx → EReal) (ix2 k q)
      = (if k.val / 32 = q.val / 64 then (m ((c : Thread nD τ).loc main_arg1) : S64x32.Idx → EReal)
          (ix2 ⟨q.val % 64, Nat.mod_lt _ (by decide)⟩ ⟨k.val % 32, Nat.mod_lt _ (by decide)⟩) else 0 : EReal) := by
  rw [w0_s8 m c, diagFill_apply]
  have hk : k.val / 32 < 8 := by omega
  by_cases h : k.val / 32 = q.val / 64
  · rw [if_pos ⟨h, hk⟩, if_pos h]
    exact w0_upd m c _ _
  · rw [if_neg (fun h' => h h'.1), if_neg h]

end Cert.KernelIdeal.Prelude

end
-- ==== Proof.PreludeW1.lean ====
/-
  The second block-diagonal weight.

  An all-zero 512 by 512 array into which the transposed second-layer weight (64 by 64) is written eight times,
  at the offsets (64 i, 64 i), i = 0 … 7. After write i the first i diagonal blocks hold the transposed weight and
  everything else is still zero; after the eighth the array is block-diagonal with eight copies of it.
-/
import proofs.«121121_j90924457656974_2_alg».proof.Proof.PreludeOps
import proofs.«121121_j90924457656974_2_alg».proof.Proof.LibWindowScatter
import Idealize.ShloMosaic.Lib.ValueIdx
import Idealize.ShloMosaic.Lib.Pipeline.Value
import Idealize.ShloMosaic.Lib.IdealHost

set_option maxRecDepth 16384

noncomputable section

namespace Cert.KernelIdeal.Prelude

open Idealize.ShloMosaic Idealize.ShloMosaic.StableHlo Idealize.ShloMosaic.ValueIdx Idealize.ShloMosaic.TcCoe
open Cert.KernelIdeal Cert.KernelIdeal.Gen Cert.LibWindowScatter

variable (m : (ℓ : Loc nD τ sig) → Buf (Elt Ideal) ℓ) (c : Dev nD)

/-- The block that is written on the diagonal is the transpose of the weight: entry (a, b) is the weight's (b, a).
    (The change of float format between them is the identity on extended reals.) -/
theorem w1_upd (a : Fin 64) (b : Fin 64) :
    (V (F := Ideal) m c main_v37 : S64x64.Idx → EReal) (ix2 a b) = (m ((c : Thread nD τ).loc main_arg2) : S64x64.Idx → EReal) (ix2 b a) := by
  rw [V_unary m c 54 rfl (by decide) (by decide) (by decide),
    V_unary m c 53 rfl (by decide) (by decide) (by decide), V_main_arg2]
  show transpose S64x64 [1, 0] (m ((c : Thread nD τ).loc main_arg2) : S64x64.Idx → EReal) transposes_S64x64_S64x64_1_0 (ix2 a b) = _
  exact transpose_apply _ _ _ _ _ (fun b' => match b' with | ⟨0, _⟩ => rfl | ⟨1, _⟩ => rfl)

/-- Before the first write the buffer is all zero. -/
theorem w1_s0 : (V (F := Ideal) m c main_v38 : S512x512.Idx → EReal) = diagFill (M := 512) (N := 512) (by decide) (by decide) (V (F := Ideal) m c main_v37 : S64x64.Idx → EReal) (0 : EReal) 0 := by
  rw [V_unary m c 56 rfl (by decide) (by decide) (by decide),
    V_nullary m c 55 rfl (by decide), diagFill_zero]
  funext j
  exact Ideal.ofBits_zero_bf16

/-- After write number 1 the first 1 diagonal block hold the update. -/
theorem w1_s1 : (V (F := Ideal) m c main_v42 : S512x512.Idx → EReal) = diagFill (M := 512) (N := 512) (by decide) (by decide) (V (F := Ideal) m c main_v37 : S64x64.Idx → EReal) (0 : EReal) 1 := by
  rw [V_ternary m c 62 rfl (by decide) (by decide) (by decide) (by decide) (by decide) (by decide) (by decide),
    V_binary m c 61 rfl (by decide) (by decide) (by decide) (by decide) (by decide),
    V_unary m c 58 rfl (by decide) (by decide) (by decide), V_nullary m c 57 rfl (by decide),
    V_unary m c 60 rfl (by decide) (by decide) (by decide), V_nullary m c 59 rfl (by decide),
    w1_s0 m c]
  exact diagFill_step_const scatter_S512x512_S2_S64x64_01_n_01_0_wf (by decide) (by decide) _ 0 0 0#32 0#32 _ _ _
    (by decide) (by decide) (by decide) (by decide)

/-- After write number 2 the first 2 diagonal blocks hold the update. -/
theorem w1_s2 : (V (F := Ideal) m c main_v46 : S512x512.Idx → EReal) = diagFill (M := 512) (N := 512) (by decide) (by decide) (V (F := Ideal) m c main_v37 : S64x64.Idx → EReal) (0 : EReal) 2 := by
  rw [V_ternary m c 68 rfl (by decide) (by decide) (by decide) (by decide) (by decide) (by decide) (by decide),
    V_binary m c 67 rfl (by decide) (by decide) (by decide) (by decide) (by decide),
    V_unary m c 64 rfl (by decide) (by decide) (by decide), V_nullary m c 63 rfl (by decide),
    V_unary m c 66 rfl (by decide) (by decide) (by decide), V_nullary m c 65 rfl (by decide),
    w1_s1 m c]
  exact diagFill_step_const scatter_S512x512_S2_S64x64_01_n_01_0_wf (by decide) (by decide) _ 0 1 64#32 64#32 _ _ _
    (by decide) (by decide) (by decide) (by decide)

/-- After write number 3 the first 3 diagonal blocks hold the update. -/
theorem w1_s3 : (V (F := Ideal) m c main_v50 : S512x512.Idx → EReal) = diagFill (M := 512) (N := 512) (by decide) (by decide) (V (F := Ideal) m c main_v37 : S64x64.Idx → EReal) (0 : EReal) 3 := by
  rw [V_ternary m c 74 rfl (by decide) (by decide) (by decide) (by decide) (by decide) (by decide) (by decide),
    V_binary m c 73 rfl (by decide) (by decide) (by decide) (by decide) (by decide),
    V_unary m c 70 rfl (by decide) (by decide) (by decide), V_nullary m c 69 rfl (by decide),
    V_unary m c 72 rfl (by decide) (by decide) (by decide), V_nullary m c 71 rfl (by decide),
    w1_s2 m c]
  exact diagFill_step_const scatter_S512x512_S2_S64x64_01_n_01_0_wf (by decide) (by decide) _ 0 2 128#32 128#32 _ _ _
    (by decide) (by decide) (by decide) (by decide)

/-- After write number 4 the first 4 diagonal blocks hold the update. -/
theorem w1_s4 : (V (F := Ideal) m c main_v54 : S512x512.Idx → EReal) = diagFill (M := 512) (N := 512) (by decide) (by decide) (V (F := Ideal) m c main_v37 : S64x64.Idx → EReal) (0 : EReal) 4 := by
  rw [V_ternary m c 80 rfl (by decide) (by decide) (by decide) (by decide) (by decide) (by decide) (by decide),
    V_binary m c 79 rfl (by decide) (by decide) (by decide) (by decide) (by decide),
    V_unary m c 76 rfl (by decide) (by decide) (by decide), V_nullary m c 75 rfl (by decide),
    V_unary m c 78 rfl (by decide) (by decide) (by decide), V_nullary m c 77 rfl (by decide),
    w1_s3 m c]
  exact diagFill_step_const scatter_S512x512_S2_S64x64_01_n_01_0_wf (by decide) (by decide) _ 0 3 192#32 192#32 _ _ _
    (by decide) (by decide) (by decide) (by decide)

/-- After write number 5 the first 5 diagonal blocks hold the update. -/
theorem w1_s5 : (V (F := Ideal) m c main_v58 : S512x512.Idx → EReal) = diagFill (M := 512) (N := 512) (by decide) (by decide) (V (F := Ideal) m c main_v37 : S64x64.Idx → EReal) (0 : EReal) 5 := by
  rw [V_ternary m c 86 rfl (by decide) (by decide) (by decide) (by decide) (by decide) (by decide) (by decide),
    V_binary m c 85 rfl (by decide) (by decide) (by decide) (by decide) (by decide),
    V_unary m c 82 rfl (by decide) (by decide) (by decide), V_nullary m c 81 rfl (by decide),
    V_unary m c 84 rfl (by decide) (by decide) (by decide), V_nullary m c 83 rfl (by decide),
    w1_s4 m c]
  exact diagFill_step_const scatter_S512x512_S2_S64x64_01_n_01_0_wf (by decide) (by decide) _ 0 4 256#32 256#32 _ _ _
    (by decide) (by decide) (by decide) (by decide)

/-- After write number 6 the first 6 diagonal blocks hold the update. -/
theorem w1_s6 : (V (F := Ideal) m c main_v62 : S512x512.Idx → EReal) = diagFill (M := 512) (N := 512) (by decide) (by decide) (V (F := Ideal) m c main_v37 : S64x64.Idx → EReal) (0 : EReal) 6 := by
  rw [V_ternary m c 92 rfl (by decide) (by decide) (by decide) (by decide) (by decide) (by decide) (by decide),
    V_binary m c 91 rfl (by decide) (by decide) (by decide) (by decide) (by decide),
    V_unary m c 88 rfl (by decide) (by decide) (by decide), V_nullary m c 87 rfl (by decide),
    V_unary m c 90 rfl (by decide) (by decide) (by decide), V_nullary m c 89 rfl (by decide),
    w1_s5 m c]
  exact diagFill_step_const scatter_S512x512_S2_S64x64_01_n_01_0_wf (by decide) (by decide) _ 0 5 320#32 320#32 _ _ _
    (by decide) (by decide) (by decide) (by decide)

/-- After write number 7 the first 7 diagonal blocks hold the update. -/
theorem w1_s7 : (V (F := Ideal) m c main_v66 : S512x512.Idx → EReal) = diagFill (M := 512) (N := 512) (by decide) (by decide) (V (F := Ideal) m c main_v37 : S64x64.Idx → EReal) (0 : EReal) 7 := by
  rw [V_ternary m c 98 rfl (by decide) (by decide) (by decide) (by decide) (by decide) (by decide) (by decide),
    V_binary m c 97 rfl (by decide) (by decide) (by decide) (by decide) (by decide),
    V_unary m c 94 rfl (by decide) (by decide) (by decide), V_nullary m c 93 rfl (by decide),
    V_unary m c 96 rfl (by decide) (by decide) (by decide), V_nullary m c 95 rfl (by decide),
    w1_s6 m c]
  exact diagFill_step_const scatter_S512x512_S2_S64x64_01_n_01_0_wf (by decide) (by decide) _ 0 6 384#32 384#32 _ _ _
    (by decide) (by decide) (by decide) (by decide)

/-- After write number 8 the first 8 diagonal blocks hold the update. -/
theorem w1_s8 : (V (F := Ideal) m c main_v70 : S512x512.Idx → EReal) = diagFill (M := 512) (N := 512) (by decide) (by decide) (V (F := Ideal) m c main_v37 : S64x64.Idx → EReal) (0 : EReal) 8 := by
  rw [V_ternary m c 104 rfl (by decide) (by decide) (by decide) (by decide) (by decide) (by decide) (by decide),
    V_binary m c 103 rfl (by decide) (by decide) (by decide) (by decide) (by decide),
    V_unary m c 100 rfl (by decide) (by decide) (by decide), V_nullary m c 99 rfl (by decide),
    V_unary m c 102 rfl (by decide) (by decide) (by decide), V_nullary m c 101 rfl (by decide),
    w1_s7 m c]
  exact diagFill_step_const scatter_S512x512_S2_S64x64_01_n_01_0_wf (by decide) (by decide) _ 0 7 448#32 448#32 _ _ _
    (by decide) (by decide) (by decide) (by decide)

/-- Entry (k, q) of the second block-diagonal weight: on diagonal block k / 64 = q / 64 the weight's entry (q % 64, k % 64), elsewhere zero. -/
theorem V_w1 (k : Fin 512) (q : Fin 512) :
    (V (F := Ideal) m c main_v70 : S512x512.Idx → EReal) (ix2 k q)
      = (if k.val / 64 = q.val / 64 then (m ((c : Thread nD τ).loc main_arg2) : S64x64.Idx → EReal)
          (ix2 ⟨q.val % 64, Nat.mod_lt _ (by decide)⟩ ⟨k.val % 64, Nat.mod_lt _ (by decide)⟩) else 0 : EReal) := by
  rw [w1_s8 m c, diagFill_apply]
  have hk : k.val / 64 < 8 := by omega
  by_cases h : k.val / 64 = q.val / 64
  · rw [if_pos ⟨h, hk⟩, if_pos h]
    exact w1_upd m c _ _
  · rw [if_neg (fun h' => h h'.1), if_neg h]

end Cert.KernelIdeal.Prelude

end
-- ==== Proof.PreludeW2.lean ====
/-
  The third block-diagonal weight.

  An all-zero 512 by 512 array into which the transposed third-layer weight (64 by 64) is written eight times,
  at the offsets (64 i, 64 i), i = 0 … 7. After write i the first i diagonal blocks hold the transposed weight and
  everything else is still zero; after the eighth the array is block-diagonal with eight copies of it.
-/
import proofs.«121121_j90924457656974_2_alg».proof.Proof.PreludeOps
import proofs.«121121_j90924457656974_2_alg».proof.Proof.LibWindowScatter
import Idealize.ShloMosaic.Lib.ValueIdx
import Idealize.ShloMosaic.Lib.Pipeline.Value
import Idealize.ShloMosaic.Lib.IdealHost

set_option maxRecDepth 16384

noncomputable section

namespace Cert.KernelIdeal.Prelude

open Idealize.ShloMosaic Idealize.ShloMosaic.StableHlo Idealize.ShloMosaic.ValueIdx Idealize.ShloMosaic.TcCoe
open Cert.KernelIdeal Cert.KernelIdeal.Gen Cert.LibWindowScatter

variable (m : (ℓ : Loc nD τ sig) → Buf (Elt Ideal) ℓ) (c : Dev nD)

/-- The block that is written on the diagonal is the transpose of the weight: entry (a, b) is the weight's (b, a).
    (The change of float format between them is the identity on extended reals.) -/
theorem w2_upd (a : Fin 64) (b : Fin 64) :
    (V (F := Ideal) m c main_v72 : S64x64.Idx → EReal) (ix2 a b) = (m ((c : Thread nD τ).loc main_arg3) : S64x64.Idx → EReal) (ix2 b a) := by
  rw [V_unary m c 106 rfl (by decide) (by decide) (by decide),
    V_unary m c 105 rfl (by decide) (by decide) (by decide), V_main_arg3]
  show transpose S64x64 [1, 0] (m ((c : Thread nD τ).loc main_arg3) : S64x64.Idx → EReal) transposes_S64x64_S64x64_1_0 (ix2 a b) = _
  exact transpose_apply _ _ _ _ _ (fun b' => match b' with | ⟨0, _⟩ => rfl | ⟨1, _⟩ => rfl)

/-- Before the first write the buffer is all zero. -/
theorem w2_s0 : (V (F := Ideal) m c main_v73 : S512x512.Idx → EReal) = diagFill (M := 512) (N := 512) (by decide) (by decide) (V (F := Ideal) m c main_v72 : S64x64.Idx → EReal) (0 : EReal) 0 := by
  rw [V_unary m c 108 rfl (by decide) (by decide) (by decide),
    V_nullary m c 107 rfl (by decide), diagFill_zero]
  funext j
  exact Ideal.ofBits_zero_bf16

/-- After write number 1 the first 1 diagonal block hold the update. -/
theorem w2_s1 : (V (F := Ideal) m c main_v77 : S512x512.Idx → EReal) = diagFill (M := 512) (N := 512) (by decide) (by decide) (V (F := Ideal) m c main_v72 : S64x64.Idx → EReal) (0 : EReal) 1 := by
  rw [V_ternary m c 114 rfl (by decide) (by decide) (by decide) (by decide) (by decide) (by decide) (by decide),
    V_binary m c 113 rfl (by decide) (by decide) (by decide) (by decide) (by decide),
    V_unary m c 110 rfl (by decide) (by decide) (by decide), V_nullary m c 109 rfl (by decide),
    V_unary m c 112 rfl (by decide) (by decide) (by decide), V_nullary m c 111 rfl (by decide),
    w2_s0 m c]
  exact diagFill_step_const scatter_S512x512_S2_S64x64_01_n_01_0_wf (by decide) (by decide) _ 0 0 0#32 0#32 _ _ _
    (by decide) (by decide) (by decide) (by decide)

/-- After write number 2 the first 2 diagonal blocks hold the update. -/
theorem w2_s2 : (V (F := Ideal) m c main_v81 : S512x512.Idx → EReal) = diagFill (M := 512) (N := 512) (by decide) (by decide) (V (F := Ideal) m c main_v72 : S64x64.Idx → EReal) (0 : EReal) 2 := by
  rw [V_ternary m c 120 rfl (by decide) (by decide) (by decide) (by decide) (by decide) (by decide) (by decide),
    V_binary m c 119 rfl (by decide) (by decide) (by decide) (by decide) (by decide),
    V_unary m c 116 rfl (by decide) (by decide) (by decide), V_nullary m c 115 rfl (by decide),
    V_unary m c 118 rfl (by decide) (by decide) (by decide), V_nullary m c 117 rfl (by decide),
    w2_s1 m c]
  exact diagFill_step_const scatter_S512x512_S2_S64x64_01_n_01_0_wf (by decide) (by decide) _ 0 1 64#32 64#32 _ _ _
    (by decide) (by decide) (by decide) (by decide)

/-- After write number 3 the first 3 diagonal blocks hold the update. -/
theorem w2_s3 : (V (F := Ideal) m c main_v85 : S512x512.Idx → EReal) = diagFill (M := 512) (N := 512) (by decide) (by decide) (V (F := Ideal) m c main_v72 : S64x64.Idx → EReal) (0 : EReal) 3 := by
  rw [V_ternary m c 126 rfl (by decide) (by decide) (by decide) (by decide) (by decide) (by decide) (by decide),
    V_binary m c 125 rfl (by decide) (by decide) (by decide) (by decide) (by decide),
    V_unary m c 122 rfl (by decide) (by decide) (by decide), V_nullary m c 121 rfl (by decide),
    V_unary m c 124 rfl (by decide) (by decide) (by decide), V_nullary m c 123 rfl (by decide),
    w2_s2 m c]
  exact diagFill_step_const scatter_S512x512_S2_S64x64_01_n_01_0_wf (by decide) (by decide) _ 0 2 128#32 128#32 _ _ _
    (by decide) (by decide) (by decide) (by decide)

/-- After write number 4 the first 4 diagonal blocks hold the update. -/
theorem w2_s4 : (V (F := Ideal) m c main_v89 : S512x512.Idx → EReal) = diagFill (M := 512) (N := 512) (by decide) (by decide) (V (F := Ideal) m c main_v72 : S64x64.Idx → EReal) (0 : EReal) 4 := by
  rw [V_ternary m c 132 rfl (by decide) (by decide) (by decide) (by decide) (by decide) (by decide) (by decide),
    V_binary m c 131 rfl (by decide) (by decide) (by decide) (by decide) (by decide),
    V_unary m c 128 rfl (by decide) (by decide) (by decide), V_nullary m c 127 rfl (by decide),
    V_unary m c 130 rfl (by decide) (by decide) (by decide), V_nullary m c 129 rfl (by decide),
    w2_s3 m c]
  exact diagFill_step_const scatter_S512x512_S2_S64x64_01_n_01_0_wf (by decide) (by decide) _ 0 3 192#32 192#32 _ _ _
    (by decide) (by decide) (by decide) (by decide)

/-- After write number 5 the first 5 diagonal blocks hold the update. -/
theorem w2_s5 : (V (F := Ideal) m c main_v93 : S512x512.Idx → EReal) = diagFill (M := 512) (N := 512) (by decide) (by decide) (V (F := Ideal) m c main_v72 : S64x64.Idx → EReal) (0 : EReal) 5 := by
  rw [V_ternary m c 138 rfl (by decide) (by decide) (by decide) (by decide) (by decide) (by decide) (by decide),
    V_binary m c 137 rfl (by decide) (by decide) (by decide) (by decide) (by decide),
    V_unary m c 134 rfl (by decide) (by decide) (by decide), V_nullary m c 133 rfl (by decide),
    V_unary m c 136 rfl (by decide) (by decide) (by decide), V_nullary m c 135 rfl (by decide),
    w2_s4 m c]
  exact diagFill_step_const scatter_S512x512_S2_S64x64_01_n_01_0_wf (by decide) (by decide) _ 0 4 256#32 256#32 _ _ _
    (by decide) (by decide) (by decide) (by decide)

/-- After write number 6 the first 6 diagonal blocks hold the update. -/
theorem w2_s6 : (V (F := Ideal) m c main_v97 : S512x512.Idx → EReal) = diagFill (M := 512) (N := 512) (by decide) (by decide) (V (F := Ideal) m c main_v72 : S64x64.Idx → EReal) (0 : EReal) 6 := by
  rw [V_ternary m c 144 rfl (by decide) (by decide) (by decide) (by decide) (by decide) (by decide) (by decide),
    V_binary m c 143 rfl (by decide) (by decide) (by decide) (by decide) (by decide),
    V_unary m c 140 rfl (by decide) (by decide) (by decide), V_nullary m c 139 rfl (by decide),
    V_unary m c 142 rfl (by decide) (by decide) (by decide), V_nullary m c 141 rfl (by decide),
    w2_s5 m c]
  exact diagFill_step_const scatter_S512x512_S2_S64x64_01_n_01_0_wf (by decide) (by decide) _ 0 5 320#32 320#32 _ _ _
    (by decide) (by decide) (by decide) (by decide)

/-- After write number 7 the first 7 diagonal blocks hold the update. -/
theorem w2_s7 : (V (F := Ideal) m c main_v101 : S512x512.Idx → EReal) = diagFill (M := 512) (N := 512) (by decide) (by decide) (V (F := Ideal) m c main_v72 : S64x64.Idx → EReal) (0 : EReal) 7 := by
  rw [V_ternary m c 150 rfl (by decide) (by decide) (by decide) (by decide) (by decide) (by decide) (by decide),
    V_binary m c 149 rfl (by decide) (by decide) (by decide) (by decide) (by decide),
    V_unary m c 146 rfl (by decide) (by decide) (by decide), V_nullary m c 145 rfl (by decide),
    V_unary m c 148 rfl (by decide) (by decide) (by decide), V_nullary m c 147 rfl (by decide),
    w2_s6 m c]
  exact diagFill_step_const scatter_S512x512_S2_S64x64_01_n_01_0_wf (by decide) (by decide) _ 0 6 384#32 384#32 _ _ _
    (by decide) (by decide) (by decide) (by decide)

/-- After write number 8 the first 8 diagonal blocks hold the update. -/
theorem w2_s8 : (V (F := Ideal) m c main_v105 : S512x512.Idx → EReal) = diagFill (M := 512) (N := 512) (by decide) (by decide) (V (F := Ideal) m c main_v72 : S64x64.Idx → EReal) (0 : EReal) 8 := by
  rw [V_ternary m c 156 rfl (by decide) (by decide) (by decide) (by decide) (by decide) (by decide) (by decide),
    V_binary m c 155 rfl (by decide) (by decide) (by decide) (by decide) (by decide),
    V_unary m c 152 rfl (by decide) (by decide) (by decide), V_nullary m c 151 rfl (by decide),
    V_unary m c 154 rfl (by decide) (by decide) (by decide), V_nullary m c 153 rfl (by decide),
    w2_s7 m c]
  exact diagFill_step_const scatter_S512x512_S2_S64x64_01_n_01_0_wf (by decide) (by decide) _ 0 7 448#32 448#32 _ _ _
    (by decide) (by decide) (by decide) (by decide)

/-- Entry (k, q) of the third block-diagonal weight: on diagonal block k / 64 = q / 64 the weight's entry (q % 64, k % 64), elsewhere zero. -/
theorem V_w2 (k : Fin 512) (q : Fin 512) :
    (V (F := Ideal) m c main_v105 : S512x512.Idx → EReal) (ix2 k q)
      = (if k.val / 64 = q.val / 64 then (m ((c : Thread nD τ).loc main_arg3) : S64x64.Idx → EReal)
          (ix2 ⟨q.val % 64, Nat.mod_lt _ (by decide)⟩ ⟨k.val % 64, Nat.mod_lt _ (by decide)⟩) else 0 : EReal) := by
  rw [w2_s8 m c, diagFill_apply]
  have hk : k.val / 64 < 8 := by omega
  by_cases h : k.val / 64 = q.val / 64
  · rw [if_pos ⟨h, hk⟩, if_pos h]
    exact w2_upd m c _ _
  · rw [if_neg (fun h' => h h'.1), if_neg h]

end Cert.KernelIdeal.Prelude

end
-- ==== Proof.PreludeW3.lean ====
/-
  The fourth block-diagonal weight.

  An all-zero 512 by 512 array into which the transposed fourth-layer weight (64 by 64) is written eight times,
  at the offsets (64 i, 64 i), i = 0 … 7. After write i the first i diagonal blocks hold the transposed weight and
  everything else is still zero; after the eighth the array is block-diagonal with eight copies of it.
-/
import proofs.«121121_j90924457656974_2_alg».proof.Proof.PreludeOps
import proofs.«121121_j90924457656974_2_alg».proof.Proof.LibWindowScatter
import Idealize.ShloMosaic.Lib.ValueIdx
import Idealize.ShloMosaic.Lib.Pipeline.Value
import Idealize.ShloMosaic.Lib.IdealHost

set_option maxRecDepth 16384

noncomputable section

namespace Cert.KernelIdeal.Prelude

open Idealize.ShloMosaic Idealize.ShloMosaic.StableHlo Idealize.ShloMosaic.ValueIdx Idealize.ShloMosaic.TcCoe
open Cert.KernelIdeal Cert.KernelIdeal.Gen Cert.LibWindowScatter

variable (m : (ℓ : Loc nD τ sig) → Buf (Elt Ideal) ℓ) (c : Dev nD)

/-- The block that is written on the diagonal is the transpose of the weight: entry (a, b) is the weight's (b, a).
    (The change of float format between them is the identity on extended reals.) -/
theorem w3_upd (a : Fin 64) (b : Fin 64) :
    (V (F := Ideal) m c main_v107 : S64x64.Idx → EReal) (ix2 a b) = (m ((c : Thread nD τ).loc main_arg4) : S64x64.Idx → EReal) (ix2 b a) := by
  rw [V_unary m c 158 rfl (by decide) (by decide) (by decide),
    V_unary m c 157 rfl (by decide) (by decide) (by decide), V_main_arg4]
  show transpose S64x64 [1, 0] (m ((c : Thread nD τ).loc main_arg4) : S64x64.Idx → EReal) transposes_S64x64_S64x64_1_0 (ix2 a b) = _
  exact transpose_apply _ _ _ _ _ (fun b' => match b' with | ⟨0, _⟩ => rfl | ⟨1, _⟩ => rfl)

/-- Before the first write the buffer is all zero. -/
theorem w3_s0 : (V (F := Ideal) m c main_v108 : S512x512.Idx → EReal) = diagFill (M := 512) (N := 512) (by decide) (by decide) (V (F := Ideal) m c main_v107 : S64x64.Idx → EReal) (0 : EReal) 0 := by
  rw [V_unary m c 160 rfl (by decide) (by decide) (by decide),
    V_nullary m c 159 rfl (by decide), diagFill_zero]
  funext j
  exact Ideal.ofBits_zero_bf16

/-- After write number 1 the first 1 diagonal block hold the update. -/
theorem w3_s1 : (V (F := Ideal) m c main_v112 : S512x512.Idx → EReal) = diagFill (M := 512) (N := 512) (by decide) (by decide) (V (F := Ideal) m c main_v107 : S64x64.Idx → EReal) (0 : EReal) 1 := by
  rw [V_ternary m c 166 rfl (by decide) (by decide) (by decide) (by decide) (by decide) (by decide) (by decide),
    V_binary m c 165 rfl (by decide) (by decide) (by decide) (by decide) (by decide),
    V_unary m c 162 rfl (by decide) (by decide) (by decide), V_nullary m c 161 rfl (by decide),
    V_unary m c 164 rfl (by decide) (by decide) (by decide), V_nullary m c 163 rfl (by decide),
    w3_s0 m c]
  exact diagFill_step_const scatter_S512x512_S2_S64x64_01_n_01_0_wf (by decide) (by decide) _ 0 0 0#32 0#32 _ _ _
    (by decide) (by decide) (by decide) (by decide)

/-- After write number 2 the first 2 diagonal blocks hold the update. -/
theorem w3_s2 : (V (F := Ideal) m c main_v116 : S512x512.Idx → EReal) = diagFill (M := 512) (N := 512) (by decide) (by decide) (V (F := Ideal) m c main_v107 : S64x64.Idx → EReal) (0 : EReal) 2 := by
  rw [V_ternary m c 172 rfl (by decide) (by decide) (by decide) (by decide) (by decide) (by decide) (by decide),
    V_binary m c 171 rfl (by decide) (by decide) (by decide) (by decide) (by decide),
    V_unary m c 168 rfl (by decide) (by decide) (by decide), V_nullary m c 167 rfl (by decide),
    V_unary m c 170 rfl (by decide) (by decide) (by decide), V_nullary m c 169 rfl (by decide),
    w3_s1 m c]
  exact diagFill_step_const scatter_S512x512_S2_S64x64_01_n_01_0_wf (by decide) (by decide) _ 0 1 64#32 64#32 _ _ _
    (by decide) (by decide) (by decide) (by decide)

/-- After write number 3 the first 3 diagonal blocks hold the update. -/
theorem w3_s3 : (V (F := Ideal) m c main_v120 : S512x512.Idx → EReal) = diagFill (M := 512) (N := 512) (by decide) (by decide) (V (F := Ideal) m c main_v107 : S64x64.Idx → EReal) (0 : EReal) 3 := by
  rw [V_ternary m c 178 rfl (by decide) (by decide) (by decide) (by decide) (by decide) (by decide) (by decide),
    V_binary m c 177 rfl (by decide) (by decide) (by decide) (by decide) (by decide),
    V_unary m c 174 rfl (by decide) (by decide) (by decide), V_nullary m c 173 rfl (by decide),
    V_unary m c 176 rfl (by decide) (by decide) (by decide), V_nullary m c 175 rfl (by decide),
    w3_s2 m c]
  exact diagFill_step_const scatter_S512x512_S2_S64x64_01_n_01_0_wf (by decide) (by decide) _ 0 2 128#32 128#32 _ _ _
    (by decide) (by decide) (by decide) (by decide)

/-- After write number 4 the first 4 diagonal blocks hold the update. -/
theorem w3_s4 : (V (F := Ideal) m c main_v124 : S512x512.Idx → EReal) = diagFill (M := 512) (N := 512) (by decide) (by decide) (V (F := Ideal) m c main_v107 : S64x64.Idx → EReal) (0 : EReal) 4 := by
  rw [V_ternary m c 184 rfl (by decide) (by decide) (by decide) (by decide) (by decide) (by decide) (by decide),
    V_binary m c 183 rfl (by decide) (by decide) (by decide) (by decide) (by decide),
    V_unary m c 180 rfl (by decide) (by decide) (by decide), V_nullary m c 179 rfl (by decide),
    V_unary m c 182 rfl (by decide) (by decide) (by decide), V_nullary m c 181 rfl (by decide),
    w3_s3 m c]
  exact diagFill_step_const scatter_S512x512_S2_S64x64_01_n_01_0_wf (by decide) (by decide) _ 0 3 192#32 192#32 _ _ _
    (by decide) (by decide) (by decide) (by decide)

/-- After write number 5 the first 5 diagonal blocks hold the update. -/
theorem w3_s5 : (V (F := Ideal) m c main_v128 : S512x512.Idx → EReal) = diagFill (M := 512) (N := 512) (by decide) (by decide) (V (F := Ideal) m c main_v107 : S64x64.Idx → EReal) (0 : EReal) 5 := by
  rw [V_ternary m c 190 rfl (by decide) (by decide) (by decide) (by decide) (by decide) (by decide) (by decide),
    V_binary m c 189 rfl (by decide) (by decide) (by decide) (by decide) (by decide),
    V_unary m c 186 rfl (by decide) (by decide) (by decide), V_nullary m c 185 rfl (by decide),
    V_unary m c 188 rfl (by decide) (by decide) (by decide), V_nullary m c 187 rfl (by decide),
    w3_s4 m c]
  exact diagFill_step_const scatter_S512x512_S2_S64x64_01_n_01_0_wf (by decide) (by decide) _ 0 4 256#32 256#32 _ _ _
    (by decide) (by decide) (by decide) (by decide)

/-- After write number 6 the first 6 diagonal blocks hold the update. -/
theorem w3_s6 : (V (F := Ideal) m c main_v132 : S512x512.Idx → EReal) = diagFill (M := 512) (N := 512) (by decide) (by decide) (V (F := Ideal) m c main_v107 : S64x64.Idx → EReal) (0 : EReal) 6 := by
  rw [V_ternary m c 196 rfl (by decide) (by decide) (by decide) (by decide) (by decide) (by decide) (by decide),
    V_binary m c 195 rfl (by decide) (by decide) (by decide) (by decide) (by decide),
    V_unary m c 192 rfl (by decide) (by decide) (by decide), V_nullary m c 191 rfl (by decide),
    V_unary m c 194 rfl (by decide) (by decide) (by decide), V_nullary m c 193 rfl (by decide),
    w3_s5 m c]
  exact diagFill_step_const scatter_S512x512_S2_S64x64_01_n_01_0_wf (by decide) (by decide) _ 0 5 320#32 320#32 _ _ _
    (by decide) (by decide) (by decide) (by decide)

/-- After write number 7 the first 7 diagonal blocks hold the update. -/
theorem w3_s7 : (V (F := Ideal) m c main_v136 : S512x512.Idx → EReal) = diagFill (M := 512) (N := 512) (by decide) (by decide) (V (F := Ideal) m c main_v107 : S64x64.Idx → EReal) (0 : EReal) 7 := by
  rw [V_ternary m c 202 rfl (by decide) (by decide) (by decide) (by decide) (by decide) (by decide) (by decide),
    V_binary m c 201 rfl (by decide) (by decide) (by decide) (by decide) (by decide),
    V_unary m c 198 rfl (by decide) (by decide) (by decide), V_nullary m c 197 rfl (by decide),
    V_unary m c 200 rfl (by decide) (by decide) (by decide), V_nullary m c 199 rfl (by decide),
    w3_s6 m c]
  exact diagFill_step_const scatter_S512x512_S2_S64x64_01_n_01_0_wf (by decide) (by decide) _ 0 6 384#32 384#32 _ _ _
    (by decide) (by decide) (by decide) (by decide)

/-- After write number 8 the first 8 diagonal blocks hold the update. -/
theorem w3_s8 : (V (F := Ideal) m c main_v140 : S512x512.Idx → EReal) = diagFill (M := 512) (N := 512) (by decide) (by decide) (V (F := Ideal) m c main_v107 : S64x64.Idx → EReal) (0 : EReal) 8 := by
  rw [V_ternary m c 208 rfl (by decide) (by decide) (by decide) (by decide) (by decide) (by decide) (by decide),
    V_binary m c 207 rfl (by decide) (by decide) (by decide) (by decide) (by decide),
    V_unary m c 204 rfl (by decide) (by decide) (by decide), V_nullary m c 203 rfl (by decide),
    V_unary m c 206 rfl (by decide) (by decide) (by decide), V_nullary m c 205 rfl (by decide),
    w3_s7 m c]
  exact diagFill_step_const scatter_S512x512_S2_S64x64_01_n_01_0_wf (by decide) (by decide) _ 0 7 448#32 448#32 _ _ _
    (by decide) (by decide) (by decide) (by decide)

/-- Entry (k, q) of the fourth block-diagonal weight: on diagonal block k / 64 = q / 64 the weight's entry (q % 64, k % 64), elsewhere zero. -/
theorem V_w3 (k : Fin 512) (q : Fin 512) :
    (V (F := Ideal) m c main_v140 : S512x512.Idx → EReal) (ix2 k q)
      = (if k.val / 64 = q.val / 64 then (m ((c : Thread nD τ).loc main_arg4) : S64x64.Idx → EReal)
          (ix2 ⟨q.val % 64, Nat.mod_lt _ (by decide)⟩ ⟨k.val % 64, Nat.mod_lt _ (by decide)⟩) else 0 : EReal) := by
  rw [w3_s8 m c, diagFill_apply]
  have hk : k.val / 64 < 8 := by omega
  by_cases h : k.val / 64 = q.val / 64
  · rw [if_pos ⟨h, hk⟩, if_pos h]
    exact w3_upd m c _ _
  · rw [if_neg (fun h' => h h'.1), if_neg h]

end Cert.KernelIdeal.Prelude

end
-- ==== Proof.PreludeW4.lean ====
/-
  The block-diagonal output weight.

  An all-zero 512 by 128 array into which the transposed output weight (64 by 16) is written eight times, at the
  offsets (64 i, 16 i), i = 0 … 7. After write i the first i diagonal blocks hold the transposed weight and
  everything else is still zero; after the eighth the array is block-diagonal with eight copies of it.
-/
import proofs.«121121_j90924457656974_2_alg».proof.Proof.PreludeOps
import proofs.«121121_j90924457656974_2_alg».proof.Proof.LibWindowScatter
import Idealize.ShloMosaic.Lib.ValueIdx
import Idealize.ShloMosaic.Lib.Pipeline.Value
import Idealize.ShloMosaic.Lib.IdealHost

set_option maxRecDepth 16384

noncomputable section

namespace Cert.KernelIdeal.Prelude

open Idealize.ShloMosaic Idealize.ShloMosaic.StableHlo Idealize.ShloMosaic.ValueIdx Idealize.ShloMosaic.TcCoe
open Cert.KernelIdeal Cert.KernelIdeal.Gen Cert.LibWindowScatter

variable (m : (ℓ : Loc nD τ sig) → Buf (Elt Ideal) ℓ) (c : Dev nD)

/-- The block that is written on the diagonal is the transpose of the weight: entry (a, b) is the weight's (b, a).
    (The change of float format between them is the identity on extended reals.) -/
theorem w4_upd (a : Fin 64) (b : Fin 16) :
    (V (F := Ideal) m c main_v142 : S64x16.Idx → EReal) (ix2 a b) = (m ((c : Thread nD τ).loc main_arg5) : S16x64.Idx → EReal) (ix2 b a) := by
  rw [V_unary m c 210 rfl (by decide) (by decide) (by decide),
    V_unary m c 209 rfl (by decide) (by decide) (by decide), V_main_arg5]
  show transpose S64x16 [1, 0] (m ((c : Thread nD τ).loc main_arg5) : S16x64.Idx → EReal) transposes_S16x64_S64x16_1_0 (ix2 a b) = _
  exact transpose_apply _ _ _ _ _ (fun b' => match b' with | ⟨0, _⟩ => rfl | ⟨1, _⟩ => rfl)

/-- Before the first write the buffer is all zero. -/
theorem w4_s0 : (V (F := Ideal) m c main_v143 : S512x128.Idx → EReal) = diagFill (M := 512) (N := 128) (by decide) (by decide) (V (F := Ideal) m c main_v142 : S64x16.Idx → EReal) (0 : EReal) 0 := by
  rw [V_unary m c 212 rfl (by decide) (by decide) (by decide),
    V_nullary m c 211 rfl (by decide), diagFill_zero]
  funext j
  exact Ideal.ofBits_zero_bf16

/-- After write number 1 the first 1 diagonal block hold the update. -/
theorem w4_s1 : (V (F := Ideal) m c main_v147 : S512x128.Idx → EReal) = diagFill (M := 512) (N := 128) (by decide) (by decide) (V (F := Ideal) m c main_v142 : S64x16.Idx → EReal) (0 : EReal) 1 := by
  rw [V_ternary m c 218 rfl (by decide) (by decide) (by decide) (by decide) (by decide) (by decide) (by decide),
    V_binary m c 217 rfl (by decide) (by decide) (by decide) (by decide) (by decide),
    V_unary m c 214 rfl (by decide) (by decide) (by decide), V_nullary m c 213 rfl (by decide),
    V_unary m c 216 rfl (by decide) (by decide) (by decide), V_nullary m c 215 rfl (by decide),
    w4_s0 m c]
  exact diagFill_step_const scatter_S512x128_S2_S64x16_01_n_01_0_wf (by decide) (by decide) _ 0 0 0#32 0#32 _ _ _
    (by decide) (by decide) (by decide) (by decide)

/-- After write number 2 the first 2 diagonal blocks hold the update. -/
theorem w4_s2 : (V (F := Ideal) m c main_v151 : S512x128.Idx → EReal) = diagFill (M := 512) (N := 128) (by decide) (by decide) (V (F := Ideal) m c main_v142 : S64x16.Idx → EReal) (0 : EReal) 2 := by
  rw [V_ternary m c 224 rfl (by decide) (by decide) (by decide) (by decide) (by decide) (by decide) (by decide),
    V_binary m c 223 rfl (by decide) (by decide) (by decide) (by decide) (by decide),
    V_unary m c 220 rfl (by decide) (by decide) (by decide), V_nullary m c 219 rfl (by decide),
    V_unary m c 222 rfl (by decide) (by decide) (by decide), V_nullary m c 221 rfl (by decide),
    w4_s1 m c]
  exact diagFill_step_const scatter_S512x128_S2_S64x16_01_n_01_0_wf (by decide) (by decide) _ 0 1 64#32 16#32 _ _ _
    (by decide) (by decide) (by decide) (by decide)

/-- After write number 3 the first 3 diagonal blocks hold the update. -/
theorem w4_s3 : (V (F := Ideal) m c main_v155 : S512x128.Idx → EReal) = diagFill (M := 512) (N := 128) (by decide) (by decide) (V (F := Ideal) m c main_v142 : S64x16.Idx → EReal) (0 : EReal) 3 := by
  rw [V_ternary m c 230 rfl (by decide) (by decide) (by decide) (by decide) (by decide) (by decide) (by decide),
    V_binary m c 229 rfl (by decide) (by decide) (by decide) (by decide) (by decide),
    V_unary m c 226 rfl (by decide) (by decide) (by decide), V_nullary m c 225 rfl (by decide),
    V_unary m c 228 rfl (by decide) (by decide) (by decide), V_nullary m c 227 rfl (by decide),
    w4_s2 m c]
  exact diagFill_step_const scatter_S512x128_S2_S64x16_01_n_01_0_wf (by decide) (by decide) _ 0 2 128#32 32#32 _ _ _
    (by decide) (by decide) (by decide) (by decide)

/-- After write number 4 the first 4 diagonal blocks hold the update. -/
theorem w4_s4 : (V (F := Ideal) m c main_v159 : S512x128.Idx → EReal) = diagFill (M := 512) (N := 128) (by decide) (by decide) (V (F := Ideal) m c main_v142 : S64x16.Idx → EReal) (0 : EReal) 4 := by
  rw [V_ternary m c 236 rfl (by decide) (by decide) (by decide) (by decide) (by decide) (by decide) (by decide),
    V_binary m c 235 rfl (by decide) (by decide) (by decide) (by decide) (by decide),
    V_unary m c 232 rfl (by decide) (by decide) (by decide), V_nullary m c 231 rfl (by decide),
    V_unary m c 234 rfl (by decide) (by decide) (by decide), V_nullary m c 233 rfl (by decide),
    w4_s3 m c]
  exact diagFill_step_const scatter_S512x128_S2_S64x16_01_n_01_0_wf (by decide) (by decide) _ 0 3 192#32 48#32 _ _ _
    (by decide) (by decide) (by decide) (by decide)

/-- After write number 5 the first 5 diagonal blocks hold the update. -/
theorem w4_s5 : (V (F := Ideal) m c main_v163 : S512x128.Idx → EReal) = diagFill (M := 512) (N := 128) (by decide) (by decide) (V (F := Ideal) m c main_v142 : S64x16.Idx → EReal) (0 : EReal) 5 := by
  rw [V_ternary m c 242 rfl (by decide) (by decide) (by decide) (by decide) (by decide) (by decide) (by decide),
    V_binary m c 241 rfl (by decide) (by decide) (by decide) (by decide) (by decide),
    V_unary m c 238 rfl (by decide) (by decide) (by decide), V_nullary m c 237 rfl (by decide),
    V_unary m c 240 rfl (by decide) (by decide) (by decide), V_nullary m c 239 rfl (by decide),
    w4_s4 m c]
  exact diagFill_step_const scatter_S512x128_S2_S64x16_01_n_01_0_wf (by decide) (by decide) _ 0 4 256#32 64#32 _ _ _
    (by decide) (by decide) (by decide) (by decide)

/-- After write number 6 the first 6 diagonal blocks hold the update. -/
theorem w4_s6 : (V (F := Ideal) m c main_v167 : S512x128.Idx → EReal) = diagFill (M := 512) (N := 128) (by decide) (by decide) (V (F := Ideal) m c main_v142 : S64x16.Idx → EReal) (0 : EReal) 6 := by
  rw [V_ternary m c 248 rfl (by decide) (by decide) (by decide) (by decide) (by decide) (by decide) (by decide),
    V_binary m c 247 rfl (by decide) (by decide) (by decide) (by decide) (by decide),
    V_unary m c 244 rfl (by decide) (by decide) (by decide), V_nullary m c 243 rfl (by decide),
    V_unary m c 246 rfl (by decide) (by decide) (by decide), V_nullary m c 245 rfl (by decide),
    w4_s5 m c]
  exact diagFill_step_const scatter_S512x128_S2_S64x16_01_n_01_0_wf (by decide) (by decide) _ 0 5 320#32 80#32 _ _ _
    (by decide) (by decide) (by decide) (by decide)

/-- After write number 7 the first 7 diagonal blocks hold the update. -/
theorem w4_s7 : (V (F := Ideal) m c main_v171 : S512x128.Idx → EReal) = diagFill (M := 512) (N := 128) (by decide) (by decide) (V (F := Ideal) m c main_v142 : S64x16.Idx → EReal) (0 : EReal) 7 := by
  rw [V_ternary m c 254 rfl (by decide) (by decide) (by decide) (by decide) (by decide) (by decide) (by decide),
    V_binary m c 253 rfl (by decide) (by decide) (by decide) (by decide) (by decide),
    V_unary m c 250 rfl (by decide) (by decide) (by decide), V_nullary m c 249 rfl (by decide),
    V_unary m c 252 rfl (by decide) (by decide) (by decide), V_nullary m c 251 rfl (by decide),
    w4_s6 m c]
  exact diagFill_step_const scatter_S512x128_S2_S64x16_01_n_01_0_wf (by decide) (by decide) _ 0 6 384#32 96#32 _ _ _
    (by decide) (by decide) (by decide) (by decide)

/-- After write number 8 the first 8 diagonal blocks hold the update. -/
theorem w4_s8 : (V (F := Ideal) m c main_v175 : S512x128.Idx → EReal) = diagFill (M := 512) (N := 128) (by decide) (by decide) (V (F := Ideal) m c main_v142 : S64x16.Idx → EReal) (0 : EReal) 8 := by
  rw [V_ternary m c 260 rfl (by decide) (by decide) (by decide) (by decide) (by decide) (by decide) (by decide),
    V_binary m c 259 rfl (by decide) (by decide) (by decide) (by decide) (by decide),
    V_unary m c 256 rfl (by decide) (by decide) (by decide), V_nullary m c 255 rfl (by decide),
    V_unary m c 258 rfl (by decide) (by decide) (by decide), V_nullary m c 257 rfl (by decide),
    w4_s7 m c]
  exact diagFill_step_const scatter_S512x128_S2_S64x16_01_n_01_0_wf (by decide) (by decide) _ 0 7 448#32 112#32 _ _ _
    (by decide) (by decide) (by decide) (by decide)

/-- Entry (k, q) of the block-diagonal output weight: on diagonal block k / 64 = q / 16 the weight's entry (q % 16, k % 64), elsewhere zero. -/
theorem V_wout (k : Fin 512) (q : Fin 128) :
    (V (F := Ideal) m c main_v175 : S512x128.Idx → EReal) (ix2 k q)
      = (if k.val / 64 = q.val / 16 then (m ((c : Thread nD τ).loc main_arg5) : S16x64.Idx → EReal)
          (ix2 ⟨q.val % 16, Nat.mod_lt _ (by decide)⟩ ⟨k.val % 64, Nat.mod_lt _ (by decide)⟩) else 0 : EReal) := by
  rw [w4_s8 m c, diagFill_apply]
  have hk : k.val / 64 < 8 := by omega
  by_cases h : k.val / 64 = q.val / 16
  · rw [if_pos ⟨h, hk⟩, if_pos h]
    exact w4_upd m c _ _
  · rw [if_neg (fun h' => h h'.1), if_neg h]

end Cert.KernelIdeal.Prelude

end
-- ==== Proof.Prelude.lean ====
/-
  What the region finds in the six arrays it reads, as functions of the program's arguments: the packed input
  and the five block-diagonal weights.
-/
import proofs.«121121_j90924457656974_2_alg».proof.Proof.PreludeX
import proofs.«121121_j90924457656974_2_alg».proof.Proof.PreludeW0
import proofs.«121121_j90924457656974_2_alg».proof.Proof.PreludeW1
import proofs.«121121_j90924457656974_2_alg».proof.Proof.PreludeW2
import proofs.«121121_j90924457656974_2_alg».proof.Proof.PreludeW3
import proofs.«121121_j90924457656974_2_alg».proof.Proof.PreludeW4
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.Body.lean ====
/-
  The value the kernel body stores, as the packed chain of matrix products.

  The body loads its seven blocks whole, and its one stored value is computed from the six input blocks by five
  matrix products into zero accumulators, the first four each followed by max(·, 0). Over the extended reals a
  change of float format is the identity and the zero accumulator contributes nothing, so the stored value is
  the chain `packedMlp` of the input blocks, entry by entry.
-/
import proofs.«121121_j90924457656974_2_alg».proof.Proof.Gen.KernelIdeal.Skeleton
import proofs.«121121_j90924457656974_2_alg».proof.Proof.Spec
import proofs.«121121_j90924457656974_2_alg».proof.Proof.LibPlainMatmul

noncomputable section

namespace Cert.KernelIdeal.Body

open Idealize.ShloMosaic Idealize.ShloMosaic.ValueIdx Cert.KernelIdeal Cert.KernelIdeal.Gen Cert.Mlp Cert.LibPlainMatmul
open scoped BigOperators

/-- A plain product into the zero accumulator is the rows-by-columns product. -/
theorem matmul_eq_mm {a k b : ℕ} {φ₁ φ₂ : FTy}
    (wf : DotDims.WF (⟨2, ![a, k]⟩ : Shape) ⟨2, ![k, b]⟩ ⟨2, ![a, b]⟩ [1] [0] [0] [1] [] [])
    (l : FVec Ideal ⟨2, ![a, k]⟩ φ₁) (r : FVec Ideal ⟨2, ![k, b]⟩ φ₂) :
    FloatOps.matmul (plainDims wf) none l r (constant (F := Ideal) ⟨2, ![a, b]⟩ .f32 0x00000000#32) = mm l r := by
  funext j
  obtain ⟨p, q, rfl⟩ : ∃ (p : Fin a) (q : Fin b), j = ix2 p q := ⟨j 0, j 1, eq_ix2 j⟩
  exact (matmul_zero_plain wf l r p q).trans (mm_apply l r p q).symm

/-- The maximum with a broadcast zero, then a change of format, is max(·, 0). -/
theorem max_zero_eq_relu {s : Shape} (v : FVec Ideal s .f32) (h : FTy.bf16.bits < FTy.f32.bits) :
    (truncf .bf16 (maximumf v (broadcast s (Scalar.ofBits (F := Ideal) .f32 0x00000000#32))) h : FVec Ideal s .bf16) = relu v := by
  funext i
  show max (v i) (Ideal.ofBits .f32 0x00000000#32) = max (v i) 0
  rw [Ideal.ofBits_zero_f32]

/-- The body's stored value is the packed chain of its six input blocks. -/
theorem pay_eq (x0 : Vec Ideal S4096x256 .f32) (x1 : Vec Ideal S256x512 .bf16) (x2 x3 x4 : Vec Ideal S512x512 .bf16)
    (x5 : Vec Ideal S512x128 .bf16) :
    k0_pay1 (F := Ideal) x0 x1 x2 x3 x4 x5 = packedMlp x0 x1 x2 x3 x4 x5 := by
  unfold k0_pay1 packedMlp
  simp only [shapeCast_self]
  rw [max_zero_eq_relu, max_zero_eq_relu, max_zero_eq_relu, max_zero_eq_relu]
  refine (matmul_eq_mm _ _ _).trans ?_
  refine congrArg (fun h => mm (relu h) x5) ?_
  refine (matmul_eq_mm _ _ _).trans ?_
  refine congrArg (fun h => mm (relu h) x4) ?_
  refine (matmul_eq_mm _ _ _).trans ?_
  refine congrArg (fun h => mm (relu h) x3) ?_
  refine (matmul_eq_mm _ _ _).trans ?_
  refine congrArg (fun h => mm (relu h) x2) ?_
  exact matmul_eq_mm _ _ _

end Cert.KernelIdeal.Body

end
-- ==== Proof.Blocks.lean ====
/-
  From the blocks the grid points write back to the value of the program's result.

  The output array has 131072 rows of 128 entries; grid point t computes rows 4096 t … 4096 t + 4095 from the same
  rows of the packed input and from the five weight arrays, which every point sees whole. A row of the chain of
  matrix products depends on the same row of its first factor only, so what point t writes back is block t of ONE
  function of the whole arrays: the chain `packedMlp` over the packed input and the weights. The 32 blocks tile the
  output array (row r lies in block r / 4096), hence the array ends holding that function. The one host line after
  the region regroups rows of 128 into rows of 16 keeping the row-major order: entry (n, o) of the result is entry
  (n / 8, 16 (n % 8) + o) of the array. The six arguments are written by nothing and end as launched.
-/
import proofs.«121121_j90924457656974_2_alg».proof.Proof.Gen.KernelIdeal.Frame
import proofs.«121121_j90924457656974_2_alg».proof.Proof.Spec
import proofs.«121121_j90924457656974_2_alg».proof.Proof.Body
import Idealize.ShloMosaic.Lib.Pipeline.Value
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The whole packed chain over the arrays the region finds. -/
abbrev G (c : Dev nD) : S131072x128.Idx → EReal :=
  Cert.Mlp.packedMlp (Gen.V (F := Ideal) m c main_v0 : S131072x256.Idx → EReal) (Gen.V (F := Ideal) m c main_v35 : S256x512.Idx → EReal)
    (Gen.V (F := Ideal) m c main_v70 : S512x512.Idx → EReal) (Gen.V (F := Ideal) m c main_v105 : S512x512.Idx → EReal)
    (Gen.V (F := Ideal) m c main_v140 : S512x512.Idx → EReal) (Gen.V (F := Ideal) m c main_v175 : S512x128.Idx → EReal)

/-- The printed index maps over the grid: the first and the last window move down one block of rows per point, the
    weights' windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The window of operand 1 has one block, the whole array, at every point. -/
theorem iblk1 (c : Dev nD) (t : Fin cfg0.N) :
    (Gen.iblk (F := Ideal) m c 1 t : S256x512.Idx → EReal) = (Gen.V (F := Ideal) m c main_v35 : S256x512.Idx → EReal) := by
  obtain ⟨-, -, e0, e1, -, -, -, -, -, -, -, -, -, -⟩ := idx_facts t
  funext y
  unfold Gen.iblk
  rw [View.read_apply]
  show Gen.V (F := Ideal) m c main_v35 (((cfg0.win 1).blk t).view.emb y) = Gen.V (F := Ideal) m c main_v35 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- The window of operand 2 has one block, the whole array, at every point. -/
theorem iblk2 (c : Dev nD) (t : Fin cfg0.N) :
    (Gen.iblk (F := Ideal) m c 2 t : S512x512.Idx → EReal) = (Gen.V (F := Ideal) m c main_v70 : S512x512.Idx → EReal) := by
  obtain ⟨-, -, -, -, e0, e1, -, -, -, -, -, -, -, -⟩ := idx_facts t
  funext y
  unfold Gen.iblk
  rw [View.read_apply]
  show Gen.V (F := Ideal) m c main_v70 (((cfg0.win 2).blk t).view.emb y) = Gen.V (F := Ideal) m c main_v70 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The window of operand 3 has one block, the whole array, at every point. -/
theorem iblk3 (c : Dev nD) (t : Fin cfg0.N) :
    (Gen.iblk (F := Ideal) m c 3 t : S512x512.Idx → EReal) = (Gen.V (F := Ideal) m c main_v105 : S512x512.Idx → EReal) := by
  obtain ⟨-, -, -, -, -, -, e0, e1, -, -, -, -, -, -⟩ := idx_facts t
  funext y
  unfold Gen.iblk
  rw [View.read_apply]
  show Gen.V (F := Ideal) m c main_v105 (((cfg0.win 3).blk t).view.emb y) = Gen.V (F := Ideal) m c main_v105 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- The window of operand 4 has one block, the whole array, at every point. -/
theorem iblk4 (c : Dev nD) (t : Fin cfg0.N) :
    (Gen.iblk (F := Ideal) m c 4 t : S512x512.Idx → EReal) = (Gen.V (F := Ideal) m c main_v140 : S512x512.Idx → EReal) := by
  obtain ⟨-, -, -, -, -, -, -, -, e0, e1, -, -, -, -⟩ := idx_facts t
  funext y
  unfold Gen.iblk
  rw [View.read_apply]
  show Gen.V (F := Ideal) m c main_v140 (((cfg0.win 4).blk t).view.emb y) = Gen.V (F := Ideal) m c main_v140 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- The window of operand 5 has one block, the whole array, at every point. -/
theorem iblk5 (c : Dev nD) (t : Fin cfg0.N) :
    (Gen.iblk (F := Ideal) m c 5 t : S512x128.Idx → EReal) = (Gen.V (F := Ideal) m c main_v175 : S512x128.Idx → EReal) := by
  obtain ⟨-, -, -, -, -, -, -, -, -, -, e0, e1, -, -⟩ := idx_facts t
  funext y
  unfold Gen.iblk
  rw [View.read_apply]
  show Gen.V (F := Ideal) m c main_v175 (((cfg0.win 5).blk t).view.emb y) = Gen.V (F := Ideal) m c main_v175 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 128 + 1 * (y 1).val = (y 1).val; omega

/-- Row p of the first window's block at point t is row 4096 t + p of its array. -/
theorem iblk0_row (c : Dev nD) (t : Fin cfg0.N) (p : Fin 4096) (P : Fin 131072) (hP : P.val = t.val * 4096 + p.val) (k : Fin 256) :
    (Gen.iblk (F := Ideal) m c 0 t : S4096x256.Idx → EReal) (ix2 p k)
      = (Gen.V (F := Ideal) m c main_v0 : S131072x256.Idx → EReal) (ix2 P k) := by
  obtain ⟨e0, e1, -⟩ := idx_facts t
  unfold Gen.iblk
  rw [View.read_apply]
  show Gen.V (F := Ideal) m c main_v0 (((cfg0.win 0).blk t).view.emb (ix2 p k)) = Gen.V (F := Ideal) m c main_v0 (ix2 P k)
  refine congrArg _ (funext fun a => Fin.ext ?_)
  match a with
  | ⟨0, _⟩ => show win0_0.index t (0 : Fin 2) * 4096 + 1 * p.val = P.val; omega
  | ⟨1, _⟩ => show win0_0.index t (1 : Fin 2) * 256 + 1 * k.val = k.val; omega

/-- A row of the chain over a block of rows and equal weights is the row of the chain over the whole input. -/
theorem chain_row (X : S131072x256.Idx → EReal) (B0 : S256x512.Idx → EReal) (B1 B2 B3 : S512x512.Idx → EReal) (Bo : S512x128.Idx → EReal)
    (x0 : S4096x256.Idx → EReal) (b0 : S256x512.Idx → EReal) (b1 b2 b3 : S512x512.Idx → EReal) (bo : S512x128.Idx → EReal)
    (h0 : b0 = B0) (h1 : b1 = B1) (h2 : b2 = B2) (h3 : b3 = B3) (ho : bo = Bo)
    (p : Fin 4096) (P : Fin 131072) (hx : ∀ k : Fin 256, x0 (ix2 p k) = X (ix2 P k)) (q : Fin 128) :
    Cert.Mlp.packedMlp x0 b0 b1 b2 b3 bo (ix2 p q) = Cert.Mlp.packedMlp X B0 B1 B2 B3 Bo (ix2 P q) := by
  subst h0 h1 h2 h3 ho
  exact Cert.Mlp.packedMlp_row x0 X b0 b1 b2 b3 bo p P hx q

/-- An entry of the chain over the blocks at point t is the entry of the whole chain, 4096 t rows further down. -/
theorem block_entry (c : Dev nD) (t : Fin cfg0.N) (j : S4096x128.Idx) (P : Fin 131072) (hP : P.val = t.val * 4096 + (j 0).val) :
    Cert.Mlp.packedMlp (Gen.iblk (F := Ideal) m c 0 t : S4096x256.Idx → EReal) (Gen.iblk (F := Ideal) m c 1 t : S256x512.Idx → EReal)
        (Gen.iblk (F := Ideal) m c 2 t : S512x512.Idx → EReal) (Gen.iblk (F := Ideal) m c 3 t : S512x512.Idx → EReal)
        (Gen.iblk (F := Ideal) m c 4 t : S512x512.Idx → EReal) (Gen.iblk (F := Ideal) m c 5 t : S512x128.Idx → EReal) j
      = G m c (ix2 P (j 1)) :=
  (congrArg (Cert.Mlp.packedMlp (Gen.iblk (F := Ideal) m c 0 t : S4096x256.Idx → EReal) (Gen.iblk (F := Ideal) m c 1 t : S256x512.Idx → EReal)
        (Gen.iblk (F := Ideal) m c 2 t : S512x512.Idx → EReal) (Gen.iblk (F := Ideal) m c 3 t : S512x512.Idx → EReal)
        (Gen.iblk (F := Ideal) m c 4 t : S512x512.Idx → EReal) (Gen.iblk (F := Ideal) m c 5 t : S512x128.Idx → EReal)) (eq_ix2 j)).trans
    (chain_row (Gen.V (F := Ideal) m c main_v0 : S131072x256.Idx → EReal) (Gen.V (F := Ideal) m c main_v35 : S256x512.Idx → EReal)
      (Gen.V (F := Ideal) m c main_v70 : S512x512.Idx → EReal) (Gen.V (F := Ideal) m c main_v105 : S512x512.Idx → EReal)
      (Gen.V (F := Ideal) m c main_v140 : S512x512.Idx → EReal) (Gen.V (F := Ideal) m c main_v175 : S512x128.Idx → EReal)
      (Gen.iblk (F := Ideal) m c 0 t : S4096x256.Idx → EReal) (Gen.iblk (F := Ideal) m c 1 t : S256x512.Idx → EReal)
      (Gen.iblk (F := Ideal) m c 2 t : S512x512.Idx → EReal) (Gen.iblk (F := Ideal) m c 3 t : S512x512.Idx → EReal)
      (Gen.iblk (F := Ideal) m c 4 t : S512x512.Idx → EReal) (Gen.iblk (F := Ideal) m c 5 t : S512x128.Idx → EReal)
      (iblk1 m c t) (iblk2 m c t) (iblk3 m c t) (iblk4 m c t) (iblk5 m c t) (j 0) P (fun k => iblk0_row m c t (j 0) P hP k) (j 1))

/-- What point t writes back is block t of the whole chain. -/
theorem flushed_eq (c : Dev nD) (t : Fin cfg0.N) :
    (Gen.dats (F := Ideal) m 0 c).flushed 6 t = ((cfg0.win 6).blk t).view.read (Elt Ideal) (G m c) := by
  show (cfg0.win 6).cut (grid0.coords t) ((Gen.dats (F := Ideal) m 0 c).after 6 t) = _
  rw [Gen.after0_6]
  unfold Gen.out0_6
  rw [View.canon_unit_zero hz]
  simp only [View.ld_unit_zero (S := S4096x256) hz, View.ld_unit_zero (S := S256x512) hz, View.ld_unit_zero (S := S512x512) hz, View.ld_unit_zero (S := S512x128) hz]
  rw [Cert.KernelIdeal.Body.pay_eq]
  obtain ⟨-, -, -, -, -, -, -, -, -, -, -, -, e0, e1⟩ := idx_facts t
  have ht : t.val < 32 := t.isLt
  funext j
  have hj0 : (j 0).val < 4096 := (j 0).isLt
  refine (block_entry m c t j ⟨t.val * 4096 + (j 0).val, by omega⟩ rfl).trans ?_
  rw [View.read_apply]
  refine congrArg (G m c) (funext fun a => Fin.ext ?_)
  match a with
  | ⟨0, _⟩ => show t.val * 4096 + (j 0).val = win0_6.index t (0 : Fin 2) * 4096 + 1 * (j 0).val; omega
  | ⟨1, _⟩ => show (j 1).val = win0_6.index t (1 : Fin 2) * 128 + 1 * (j 1).val; omega

/-- An index of the output array is in point t's block iff each coordinate is in the block's range on its axis. -/
theorem mem_blk (t : Fin cfg0.N) (i : S131072x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v176).slice (win0_6.rect t)).set ↔ _
  rw [View.set_slice_whole, Rect.mem_set_unit]
  exact Iff.rfl

/-- Row r of the output array is in the block of point r / 4096. -/
theorem cover (i : S131072x128.Idx) : ∃ t : Fin cfg0.N, (cfg0.win 6).flush t = true ∧ i ∈ ((cfg0.win 6).blk t).view.set := by
  have hi0 : (i 0).val < 131072 := (i 0).isLt
  have hi1 : (i 1).val < 128 := (i 1).isLt
  have hN : cfg0.N = 32 := N_0
  refine ⟨⟨(i 0).val / 4096, by rw [hN]; omega⟩, flush0_6 _, ?_⟩
  obtain ⟨-, -, -, -, -, -, -, -, -, -, -, -, e0, e1⟩ := idx_facts ⟨(i 0).val / 4096, by rw [hN]; omega⟩
  rw [mem_blk]
  intro a
  match a with
  | ⟨0, _⟩ => show win0_6.index _ (0 : Fin 2) * 4096 ≤ (i 0).val ∧ (i 0).val < win0_6.index _ (0 : Fin 2) * 4096 + 4096
              rw [e0]; show (i 0).val / 4096 * 4096 ≤ (i 0).val ∧ (i 0).val < (i 0).val / 4096 * 4096 + 4096; omega
  | ⟨1, _⟩ => show win0_6.index _ (1 : Fin 2) * 128 ≤ (i 1).val ∧ (i 1).val < win0_6.index _ (1 : Fin 2) * 128 + 128
              rw [e1]; omega

/-- The output array after the run is the whole chain over the arrays the region finds. -/
theorem whole (c : Dev nD) : (Gen.dats (F := Ideal) m 0 c).arrAt 6 cfg0.N = G m c :=
  (Gen.dats (F := Ideal) m 0 c).arrAt_eq_of_cover 6 (G m c) (fun t _ => flushed_eq m c t) cover

/-- After the one host line that follows the region, the result is the output array's chain regrouped
    from rows of 128 into rows of 16. -/
theorem tail_eq (c : Dev nD) :
    Pipeline.afterTail₀ cfgs (Gen.dats (F := Ideal) m) 0 (Gen.V0 (F := Ideal) m) [hostOps1] c main_v177
      = shapeCast S1048576x16 (G m c) shapeCasts_S131072x128_S1048576x16 := by
  unfold Pipeline.afterTail₀
  show StableHlo.after hostOps1 _ (Proc.devRef .tc main_v177) = _
  after_results
  have e : Pipeline.withArrays (cfgs 0).spec c (Gen.V0 (F := Ideal) m c) (fun w => (Gen.dats (F := Ideal) m 0 c).arrAt w (cfgs 0).N) (Proc.devRef .tc main_v176) = G m c :=
    (Pipeline.withArrays_arr spec0 launch0.win.arr_inj c _ _ 6).trans (whole m c)
  funext i
  show shapeCast S1048576x16 (Pipeline.withArrays (cfgs 0).spec c (Gen.V0 (F := Ideal) m c) (fun w => (Gen.dats (F := Ideal) m 0 c).arrAt w (cfgs 0).N) (Proc.devRef .tc main_v176)) shapeCasts_S131072x128_S1048576x16 i = _
  rw [e]

/-- The regrouping read at an index: row n, column o of the result is row n / 8, column 16 (n % 8) + o of the operand. -/
theorem regroup_apply (X : S131072x128.Idx → EReal) (i : S1048576x16.Idx) (P : Fin 131072) (Q : Fin 128)
    (hP : P.val = (i 0).val / 8) (hQ : Q.val = (i 0).val % 8 * 16 + (i 1).val) :
    shapeCast S1048576x16 X shapeCasts_S131072x128_S1048576x16 i = X (ix2 P Q) := by
  refine shapeCast_apply X shapeCasts_S131072x128_S1048576x16 i (ix2 P Q) ?_
  rw [Shape.rowMajor_val_two, Shape.rowMajor_val_two]
  have hi1 : (i 1).val < 16 := (i 1).isLt
  show P.val * 128 + Q.val = (i 0).val * 16 + (i 1).val
  omega

/-- The run, read: the result is the packed chain over the arrays the region finds, regrouped sample by sample,
    and the six arguments end as launched. -/
theorem run : θ_run (defs (F := Ideal)) (onTc (τ := τ) (main (F := Ideal))) ⟨m, fun _ => 0, ρ⟩ (fun r => ∀ c : Dev nD,
      r.2.mem ((c.tc : Thread nD τ).loc main_v177)
        = (fun i : S1048576x16.Idx => Cert.Mlp.packedMlp (Gen.V (F := Ideal) m c main_v0 : S131072x256.Idx → EReal)
            (Gen.V (F := Ideal) m c main_v35 : S256x512.Idx → EReal) (Gen.V (F := Ideal) m c main_v70 : S512x512.Idx → EReal)
            (Gen.V (F := Ideal) m c main_v105 : S512x512.Idx → EReal) (Gen.V (F := Ideal) m c main_v140 : S512x512.Idx → EReal)
            (Gen.V (F := Ideal) m c main_v175 : S512x128.Idx → EReal)
            (ix2 (⟨(i 0).val / 8, by have := idx2_lt0 i; omega⟩ : Fin 131072) (⟨(i 0).val % 8 * 16 + (i 1).val, by have := idx2_lt0 i; have := idx2_lt1 i; omega⟩ : Fin 128)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(((h c).2 main_v177 (Pipeline.mem_restRefs_of main_v177 (by decide) (by decide))).trans (tail_eq m c)).trans
        (funext fun i => regroup_apply (G m c) i _ _ rfl rfl),
      ((h c).2 main_arg0 (Pipeline.mem_restRefs_of main_arg0 (by decide) (by decide))).trans (Gen.W_main_arg0 (F := Ideal) m (Gen.dats (F := Ideal) m) c),
      ((h c).2 main_arg1 (Pipeline.mem_restRefs_of main_arg1 (by decide) (by decide))).trans (Gen.W_main_arg1 (F := Ideal) m (Gen.dats (F := Ideal) m) c),
      ((h c).2 main_arg2 (Pipeline.mem_restRefs_of main_arg2 (by decide) (by decide))).trans (Gen.W_main_arg2 (F := Ideal) m (Gen.dats (F := Ideal) m) c),
      ((h c).2 main_arg3 (Pipeline.mem_restRefs_of main_arg3 (by decide) (by decide))).trans (Gen.W_main_arg3 (F := Ideal) m (Gen.dats (F := Ideal) m) c),
      ((h c).2 main_arg4 (Pipeline.mem_restRefs_of main_arg4 (by decide) (by decide))).trans (Gen.W_main_arg4 (F := Ideal) m (Gen.dats (F := Ideal) m) c),
      ((h c).2 main_arg5 (Pipeline.mem_restRefs_of main_arg5 (by decide) (by decide))).trans (Gen.W_main_arg5 (F := Ideal) m (Gen.dats (F := Ideal) m) c)⟩) (Gen.run_main (F := Ideal) m ρ)

end Cert.KernelIdeal.Blocks

end
-- ==== Proof.Claims.lean ====
/-
  The five claims.

  The kernel lays eight consecutive samples side by side in one row and multiplies by block-diagonal weights —
  eight copies of each transposed weight matrix on the diagonal, zeros elsewhere —, and at the end cuts every
  row of 128 outputs back into eight samples of 16. The reference applies the same five layers sample by
  sample. Over the extended reals the two agree entry by entry: in every packed product the entries that pair
  a sample with another sample's block are multiplied by an exact zero and drop out of the sum (zero times
  any extended real is zero, and a finite sum may be regrouped), what is left is the sample's own sum, and
  max(·, 0) acts entry by entry in both. The precondition is not used.

  The three frames are the frame runs of the printed programs; the idealization rewrote nothing, so its
  conjunct is trivial.
-/
import proofs.«121121_j90924457656974_2_alg».proof.Defs
import proofs.«121121_j90924457656974_2_alg».proof.Proof.Gen.Kernel
import proofs.«121121_j90924457656974_2_alg».proof.Proof.Gen.Kernel.Frame
import proofs.«121121_j90924457656974_2_alg».proof.Proof.Gen.KernelIdeal
import proofs.«121121_j90924457656974_2_alg».proof.Proof.Gen.KernelIdeal.Frame
import proofs.«121121_j90924457656974_2_alg».proof.Proof.Gen.ReferenceIdeal
import proofs.«121121_j90924457656974_2_alg».proof.Proof.Gen.Pre_finite_inputs
import proofs.«121121_j90924457656974_2_alg».proof.Proof.Gen.ReferenceIdeal.Run
import proofs.«121121_j90924457656974_2_alg».proof.Proof.Gen.ReferenceIdeal.Read
import proofs.«121121_j90924457656974_2_alg».proof.Proof.Bridge
import proofs.«121121_j90924457656974_2_alg».proof.Proof.Reference
import proofs.«121121_j90924457656974_2_alg».proof.Proof.Prelude
import proofs.«121121_j90924457656974_2_alg».proof.Proof.Blocks

noncomputable section

namespace Cert.Proof.Claims

open Idealize.ShloMosaic Idealize.ShloMosaic.TcCoe Idealize.SL.Sem Idealize.ShloMosaic.ValueIdx Cert.Mlp

section Kernel
open Cert.KernelIdeal Cert.KernelIdeal.Gen Cert.KernelIdeal.Prelude

/-- The packed chain over the arrays the region reads, at the packed position of sample n's output o, is the
    per-sample perceptron of the argument arrays at (n, o): the packed input is the argument laid eight samples to a
    row, each weight array is block diagonal, and the packed position of (n, o) is row n / 8, column (n % 8) · 16 + o. -/
theorem kernel_value (m : (ℓ : Loc nD τ sig) → Buf (Elt Ideal) ℓ) (c : Dev nD) (i : S1048576x16.Idx) :
    packedMlp (V (F := Ideal) m c main_v0 : S131072x256.Idx → EReal)
        (V (F := Ideal) m c main_v35 : S256x512.Idx → EReal) (V (F := Ideal) m c main_v70 : S512x512.Idx → EReal)
        (V (F := Ideal) m c main_v105 : S512x512.Idx → EReal) (V (F := Ideal) m c main_v140 : S512x512.Idx → EReal)
        (V (F := Ideal) m c main_v175 : S512x128.Idx → EReal)
        (ix2 (⟨(i 0).val / 8, by have := idx2_lt0 i; omega⟩ : Fin 131072) (⟨(i 0).val % 8 * 16 + (i 1).val, by have := idx2_lt0 i; have := idx2_lt1 i; omega⟩ : Fin 128))
      = mlp (m ((c : Thread nD τ).loc main_arg0) : S1048576x32.Idx → EReal) (m ((c : Thread nD τ).loc main_arg1) : S64x32.Idx → EReal)
          (m ((c : Thread nD τ).loc main_arg2) : S64x64.Idx → EReal) (m ((c : Thread nD τ).loc main_arg3) : S64x64.Idx → EReal)
          (m ((c : Thread nD τ).loc main_arg4) : S64x64.Idx → EReal) (m ((c : Thread nD τ).loc main_arg5) : S16x64.Idx → EReal) i := by
  obtain ⟨n, o, rfl⟩ : ∃ (n : Fin 1048576) (o : Fin 16), i = ix2 n o := ⟨i 0, i 1, eq_ix2 i⟩
  have hX := Packed.of_apply (J := 8) (by decide) (fun r kk => by omega) (fun r kk => V_x m c r kk)
  have h0 := BlockDiag.of_apply (by decide) (by decide) (fun kk qq => V_w0 m c kk qq)
  have h1 := BlockDiag.of_apply (by decide) (by decide) (fun kk qq => V_w1 m c kk qq)
  have h2 := BlockDiag.of_apply (by decide) (by decide) (fun kk qq => V_w2 m c kk qq)
  have h3 := BlockDiag.of_apply (by decide) (by decide) (fun kk qq => V_w3 m c kk qq)
  have hout := BlockDiag.of_apply (by decide) (by decide) (fun kk qq => V_wout m c kk qq)
  refine packed_mlp (J := 8) (by decide) (by decide) rfl rfl rfl hX h0 h1 h2 h3 hout _ _ n o ?_ ?_
  · show n.val = 8 * (n.val / 8) + (n.val % 8 * 16 + o.val) / 16
    have := o.isLt; omega
  · show o.val = (n.val % 8 * 16 + o.val) % 16
    have := o.isLt; omega

end Kernel

/-- The word-level kernel runs and keeps its arguments. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the per-sample perceptron of the (agreeing) argument arrays in their result. -/
theorem algebraic : Cert.algebraic_KernelIdeal_ReferenceIdeal := by
  intro m ρ m' ρ' _ hagree
  refine ⟨fun c => mlp (m ((c : Thread Cert.KernelIdeal.nD Cert.KernelIdeal.τ).loc Cert.KernelIdeal.main_arg0) : Cert.KernelIdeal.S1048576x32.Idx → EReal)
      (m ((c : Thread Cert.KernelIdeal.nD Cert.KernelIdeal.τ).loc Cert.KernelIdeal.main_arg1) : Cert.KernelIdeal.S64x32.Idx → EReal)
      (m ((c : Thread Cert.KernelIdeal.nD Cert.KernelIdeal.τ).loc Cert.KernelIdeal.main_arg2) : Cert.KernelIdeal.S64x64.Idx → EReal)
      (m ((c : Thread Cert.KernelIdeal.nD Cert.KernelIdeal.τ).loc Cert.KernelIdeal.main_arg3) : Cert.KernelIdeal.S64x64.Idx → EReal)
      (m ((c : Thread Cert.KernelIdeal.nD Cert.KernelIdeal.τ).loc Cert.KernelIdeal.main_arg4) : Cert.KernelIdeal.S64x64.Idx → EReal)
      (m ((c : Thread Cert.KernelIdeal.nD Cert.KernelIdeal.τ).loc Cert.KernelIdeal.main_arg5) : Cert.KernelIdeal.S16x64.Idx → EReal), ?_, ?_⟩
  · refine (θ_run Cert.KernelIdeal.defs _ _).mono (fun _ h c => ⟨(h c).1.trans ?_, (h c).2⟩) (Cert.KernelIdeal.Blocks.run m ρ)
    funext i
    exact kernel_value m c i
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, Cert.ReferenceIdeal.RefValue.result_eq,
      (hagree c).1, (hagree c).2.1, (hagree c).2.2.1, (hagree c).2.2.2.1, (hagree c).2.2.2.2.1, (hagree c).2.2.2.2.2]

end Cert.Proof.Claims

end
-- ==== Proof.lean ====
/-
  The certificate's claim: a bias-free perceptron of four hidden layers (each followed by max(·, 0)) and a linear
  output layer, computed by a kernel that packs eight samples into one row against block-diagonal weights, agrees
  with the per-sample reference over the extended reals. The mathematics is in Proof/Claims.lean and the modules it
  imports: the kernel body as a chain of matrix products (Body), the arrays the region reads (Prelude), the result
  array from the grid's blocks and the final re-laying (Blocks), the reference read entry by entry (Reference), and
  the regrouping of a packed row's sum that joins the two (Bridge).
-/
import proofs.«121121_j90924457656974_2_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
